-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel

variable [Facts]

def fn_part1 {F : FTy → Type} [FloatOps F] (main_v13 : IVec S_ 1) (main_v16 : IVec S4x256x128x128 1) : IVec S_ 1 :=
  let main_c_5 : IVec S_ 1 := constantI S_ 1 1#1
  let main_v17 : IVec S_ 1 := (fun x v => Host.reduce IntOp.andi x v reducesTo_S4x256x128x128_S_d0_1_2_3 h_S_) main_v16 main_c_5
  let main_v18 : IVec S_ 1 := andi main_v13 main_v17
  main_v18

def fn {F : FTy → Type} [FloatOps F] (main_arg0 : FVec F S4x256x128x128 .f32) (main_arg1 : FVec F S4x256x128x128 .f32) (main_arg2 : FVec F S4x256x128x128 .f32) (main_arg3 : FVec F S4x256x128x128 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S4x256x128x128 .f32 := Host.absf main_arg1
  let main_cst_0 : FVec F S_ .f32 := constant S_ .f32 0x7F800000#32
  let main_v5 : FVec F S4x256x128x128 .f32 := broadcastInDim S4x256x128x128 ![] bcast_S_S4x256x128x128 main_cst_0
  let main_v6 : IVec S4x256x128x128 1 := cmpf .olt main_v4 main_v5
  let main_c_1 : IVec S_ 1 := constantI S_ 1 1#1
  let main_v7 : IVec S_ 1 := (fun x v => Host.reduce IntOp.andi x v reducesTo_S4x256x128x128_S_d0_1_2_3 h_S_) main_v6 main_c_1
  let main_v8 : IVec S_ 1 := andi main_v3 main_v7
  let main_v9 : FVec F S4x256x128x128 .f32 := Host.absf main_arg2
  let main_cst_2 : FVec F S_ .f32 := constant S_ .f32 0x7F800000#32
  let main_v10 : FVec F S4x256x128x128 .f32 := broadcastInDim S4x256x128x128 ![] bcast_S_S4x256x128x128 main_cst_2
  let main_v11 : IVec S4x256x128x128 1 := cmpf .olt main_v9 main_v10
  let main_c_3 : IVec S_ 1 := constantI S_ 1 1#1
  let main_v12 : IVec S_ 1 := (fun x v => Host.reduce IntOp.andi x v reducesTo_S4x256x128x128_S_d0_1_2_3 h_S_) main_v11 main_c_3
  let main_v13 : IVec S_ 1 := andi main_v8 main_v12
  let main_v14 : FVec F S4x256x128x128 .f32 := Host.absf main_arg3
  let main_cst_4 : FVec F S_ .f32 := constant S_ .f32 0x7F800000#32
  let main_v15 : FVec F S4x256x128x128 .f32 := broadcastInDim S4x256x128x128 ![] bcast_S_S4x256x128x128 main_cst_4
  let main_v16 : IVec S4x256x128x128 1 := cmpf .olt main_v14 main_v15
  fn_part1 (F := F) main_v13 main_v16
-- ==== Kernel.lean ====
abbrev S4x256x128x128 : Shape := ⟨4, ![4, 256, 128, 128]⟩
abbrev S4x8x32x16x8x16x8 : Shape := ⟨7, ![4, 8, 32, 16, 8, 16, 8]⟩
abbrev S4x16x16x8x8x8x32 : Shape := ⟨7, ![4, 16, 16, 8, 8, 8, 32]⟩
abbrev S1024x8x64x32 : Shape := ⟨4, ![1024, 8, 64, 32]⟩
abbrev S8192x64x32 : Shape := ⟨3, ![8192, 64, 32]⟩
abbrev S128x64x32 : Shape := ⟨3, ![128, 64, 32]⟩
abbrev S128x64x64 : Shape := ⟨3, ![128, 64, 64]⟩
abbrev S128x64 : Shape := ⟨2, ![128, 64]⟩
abbrev S128x64x1 : Shape := ⟨3, ![128, 64, 1]⟩
abbrev S4x128x256x128 : Shape := ⟨4, ![4, 128, 256, 128]⟩
abbrev S512x256x128 : Shape := ⟨3, ![512, 256, 128]⟩
abbrev S16x256x128 : Shape := ⟨3, ![16, 256, 128]⟩
abbrev S16x256x256 : Shape := ⟨3, ![16, 256, 256]⟩
abbrev S16x256 : Shape := ⟨2, ![16, 256]⟩
abbrev S16x256x1 : Shape := ⟨3, ![16, 256, 1]⟩

abbrev nBuf : Space → Nat
  | .hbm => 23
  | .vmem => 12
  | .smem => 0
  | _ => 0

abbrev bufTy : (tb : Table) → Fin (tcTables nBuf tb) → BufTy
  | .hbm, ⟨0, _⟩ => ⟨S4x256x128x128, .f32⟩
  | .hbm, ⟨1, _⟩ => ⟨S4x256x128x128, .f32⟩
  | .hbm, ⟨2, _⟩ => ⟨S4x256x128x128, .f32⟩
  | .hbm, ⟨3, _⟩ => ⟨S4x256x128x128, .f32⟩
  | .hbm, ⟨4, _⟩ => ⟨S4x8x32x16x8x16x8, .f32⟩
  | .hbm, ⟨5, _⟩ => ⟨S4x16x16x8x8x8x32, .f32⟩
  | .hbm, ⟨6, _⟩ => ⟨S1024x8x64x32, .f32⟩
  | .hbm, ⟨7, _⟩ => ⟨S8192x64x32, .f32⟩
  | .hbm, ⟨8, _⟩ => ⟨S8192x64x32, .f32⟩
  | .hbm, ⟨9, _⟩ => ⟨S1024x8x64x32, .f32⟩
  | .hbm, ⟨10, _⟩ => ⟨S4x16x16x8x8x8x32, .f32⟩
  | .hbm, ⟨11, _⟩ => ⟨S4x8x32x16x8x16x8, .f32⟩
  | .hbm, ⟨12, _⟩ => ⟨S4x256x128x128, .f32⟩
  | .hbm, ⟨13, _⟩ => ⟨S4x128x256x128, .f32⟩
  | .hbm, ⟨14, _⟩ => ⟨S512x256x128, .f32⟩
  | .hbm, ⟨15, _⟩ => ⟨S4x128x256x128, .f32⟩
  | .hbm, ⟨16, _⟩ => ⟨S512x256x128, .f32⟩
  | .hbm, ⟨17, _⟩ => ⟨S4x128x256x128, .f32⟩
  | .hbm, ⟨18, _⟩ => ⟨S512x256x128, .f32⟩
  | .hbm, ⟨19, _⟩ => ⟨S512x256x128, .f32⟩
  | .hbm, ⟨20, _⟩ => ⟨S4x128x256x128, .f32⟩
  | .hbm, ⟨21, _⟩ => ⟨S4x256x128x128, .f32⟩
  | .hbm, ⟨22, _⟩ => ⟨S4x256x128x128, .f32⟩
  | .local _ .vmem, ⟨0, _⟩ => ⟨S128x64x32, .f32⟩
  | .local _ .vmem, ⟨1, _⟩ => ⟨S128x64x32, .f32⟩
  | .local _ .vmem, ⟨2, _⟩ => ⟨S128x64x32, .f32⟩
  | .local _ .vmem, ⟨3, _⟩ => ⟨S128x64x32, .f32⟩
  | .local _ .vmem, ⟨4, _⟩ => ⟨S16x256x128, .f32⟩
  | .local _ .vmem, ⟨5, _⟩ => ⟨S16x256x128, .f32⟩
  | .local _ .vmem, ⟨6, _⟩ => ⟨S16x256x128, .f32⟩
  | .local _ .vmem, ⟨7, _⟩ => ⟨S16x256x128, .f32⟩
  | .local _ .vmem, ⟨8, _⟩ => ⟨S16x256x128, .f32⟩
  | .local _ .vmem, ⟨9, _⟩ => ⟨S16x256x128, .f32⟩
  | .local _ .vmem, ⟨10, _⟩ => ⟨S16x256x128, .f32⟩
  | .local _ .vmem, ⟨11, _⟩ => ⟨S16x256x128, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x256x128x128_S4x8x32x16x8x16x8 : S4x256x128x128.ShapeCasts S4x8x32x16x8x16x8
  transposes_S4x8x32x16x8x16x8_S4x16x16x8x8x8x32_0_3_5_1_4_6_2 : S4x8x32x16x8x16x8.Transposes [0, 3, 5, 1, 4, 6, 2] S4x16x16x8x8x8x32
  shapeCasts_S4x16x16x8x8x8x32_S1024x8x64x32 : S4x16x16x8x8x8x32.ShapeCasts S1024x8x64x32
  shapeCasts_S1024x8x64x32_S8192x64x32 : S1024x8x64x32.ShapeCasts S8192x64x32
  inb_S128x64x32_S128x64x32_0_0_0 : ∀ a, (![0, 0, 0] : Fin 3 → Nat) a + S128x64x32.size a ≤ S128x64x32.size a
  h_S128x64x32 : 0 < S128x64x32.numel
  shapeCasts_S128x64x32_S128x64x32 : S128x64x32.ShapeCasts S128x64x32
  bitsLt_bf16_f32 : FTy.bits .bf16 < FTy.bits .f32
  reduces_S128x64x64_S128x64 : S128x64x64.Reduces [2] S128x64
  shapeCasts_S128x64_S128x64x1 : S128x64.ShapeCasts S128x64x1
  broadcasts_S128x64x1_S128x64x64 : S128x64x1.Broadcasts S128x64x64
  shapeCasts_S8192x64x32_S1024x8x64x32 : S8192x64x32.ShapeCasts S1024x8x64x32
  shapeCasts_S1024x8x64x32_S4x16x16x8x8x8x32 : S1024x8x64x32.ShapeCasts S4x16x16x8x8x8x32
  transposes_S4x16x16x8x8x8x32_S4x8x32x16x8x16x8_0_3_6_1_4_2_5 : S4x16x16x8x8x8x32.Transposes [0, 3, 6, 1, 4, 2, 5] S4x8x32x16x8x16x8
  shapeCasts_S4x8x32x16x8x16x8_S4x256x128x128 : S4x8x32x16x8x16x8.ShapeCasts S4x256x128x128
  transposes_S4x256x128x128_S4x128x256x128_0_2_1_3 : S4x256x128x128.Transposes [0, 2, 1, 3] S4x128x256x128
  shapeCasts_S4x128x256x128_S512x256x128 : S4x128x256x128.ShapeCasts S512x256x128
  inb_S16x256x128_S16x256x128_0_0_0 : ∀ a, (![0, 0, 0] : Fin 3 → Nat) a + S16x256x128.size a ≤ S16x256x128.size a
  h_S16x256x128 : 0 < S16x256x128.numel
  shapeCasts_S16x256x128_S16x256x128 : S16x256x128.ShapeCasts S16x256x128
  reduces_S16x256x256_S16x256 : S16x256x256.Reduces [2] S16x256
  shapeCasts_S16x256_S16x256x1 : S16x256.ShapeCasts S16x256x1
  broadcasts_S16x256x1_S16x256x256 : S16x256x1.Broadcasts S16x256x256
  shapeCasts_S512x256x128_S4x128x256x128 : S512x256x128.ShapeCasts S4x128x256x128
  transposes_S4x128x256x128_S4x256x128x128_0_2_1_3 : S4x128x256x128.Transposes [0, 2, 1, 3] S4x256x128x128
  dot_S128x64x32_S128x64x32_S128x64x64_2_2_1_1_0_0_wf : DotDims.WF S128x64x32 S128x64x32 S128x64x64 [2] [2] [1] [1] [0] [0]
  dot_S128x64x64_S128x64x32_S128x64x32_2_1_1_2_0_0_wf : DotDims.WF S128x64x64 S128x64x32 S128x64x32 [2] [1] [1] [2] [0] [0]
  dot_S16x256x128_S16x256x128_S16x256x256_2_2_1_1_0_0_wf : DotDims.WF S16x256x128 S16x256x128 S16x256x256 [2] [2] [1] [1] [0] [0]
  dot_S16x256x256_S16x256x128_S16x256x128_2_1_1_2_0_0_wf : DotDims.WF S16x256x256 S16x256x128 S16x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x32.size a ≤ S8192x64x32.size a
  hwx0_0 : ∀ i : grid0.Coords, EltTy.bits .f32 = 32 ∨ (Rect.block (s := S8192x64x32) S128x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x32.size a ≤ S8192x64x32.size a
  hwx0_1 : ∀ i : grid0.Coords, EltTy.bits .f32 = 32 ∨ (Rect.block (s := S8192x64x32) S128x64x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x128.size a ≤ S512x256x128.size a
  hwx1_0 : ∀ i : grid1.Coords, EltTy.bits .f32 = 32 ∨ (Rect.block (s := S512x256x128) S16x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x128.size a ≤ S512x256x128.size a
  hwx1_1 : ∀ i : grid1.Coords, EltTy.bits .f32 = 32 ∨ (Rect.block (s := S512x256x128) S16x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256x128.size a ≤ S512x256x128.size a
  hwx1_2 : ∀ i : grid1.Coords, EltTy.bits .f32 = 32 ∨ (Rect.block (s := S512x256x128) S16x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x128.size a ≤ S512x256x128.size a
  hwx1_3 : ∀ i : grid1.Coords, EltTy.bits .f32 = 32 ∨ (Rect.block (s := S512x256x128) S16x256x128.size (cc1_transform_3 i) (hinb1_3 i)).WholeWords (EltTy.packing .f32)

variable [Facts₀]

def dot_S128x64x32_S128x64x32_S128x64x64_2_2_1_1_0_0 : DotDims S128x64x32 S128x64x32 S128x64x64 where
  lhsContracting := [2]
  rhsContracting := [2]
  lhsNonContracting := [1]
  rhsNonContracting := [1]
  lhsBatch := [0]
  rhsBatch := [0]
  wf := dot_S128x64x32_S128x64x32_S128x64x64_2_2_1_1_0_0_wf
def dot_S128x64x64_S128x64x32_S128x64x32_2_1_1_2_0_0 : DotDims S128x64x64 S128x64x32 S128x64x32 where
  lhsContracting := [2]
  rhsContracting := [1]
  lhsNonContracting := [1]
  rhsNonContracting := [2]
  lhsBatch := [0]
  rhsBatch := [0]
  wf := dot_S128x64x64_S128x64x32_S128x64x32_2_1_1_2_0_0_wf
def dot_S16x256x128_S16x256x128_S16x256x256_2_2_1_1_0_0 : DotDims S16x256x128 S16x256x128 S16x256x256 where
  lhsContracting := [2]
  rhsContracting := [2]
  lhsNonContracting := [1]
  rhsNonContracting := [1]
  lhsBatch := [0]
  rhsBatch := [0]
  wf := dot_S16x256x128_S16x256x128_S16x256x256_2_2_1_1_0_0_wf
def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf

abbrev win0_0 : Pipeline.Window sig grid0 :=
  Pipeline.Window.ofSpec (Memref.whole main_v3) S128x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v10) S16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S16x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S16x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x256x128x128 : Shape := ⟨4, ![4, 256, 128, 128]⟩
abbrev S4x8x32x16x8x16x8 : Shape := ⟨7, ![4, 8, 32, 16, 8, 16, 8]⟩
abbrev S4x16x16x8x8x8x32 : Shape := ⟨7, ![4, 16, 16, 8, 8, 8, 32]⟩
abbrev S1024x8x64x32 : Shape := ⟨4, ![1024, 8, 64, 32]⟩
abbrev S1024x8x64x64 : Shape := ⟨4, ![1024, 8, 64, 64]⟩
abbrev S_ : Shape := ⟨0, ![]⟩
abbrev S1024x8x64 : Shape := ⟨3, ![1024, 8, 64]⟩
abbrev S1024x8x64x1 : Shape := ⟨4, ![1024, 8, 64, 1]⟩
abbrev S4x128x256x128 : Shape := ⟨4, ![4, 128, 256, 128]⟩
abbrev S4x128x256x256 : Shape := ⟨4, ![4, 128, 256, 256]⟩
abbrev S4x128x256 : Shape := ⟨3, ![4, 128, 256]⟩
abbrev S4x128x256x1 : Shape := ⟨4, ![4, 128, 256, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S4x256x128x128, .f32⟩
  | .hbm, ⟨2, _⟩ => ⟨S4x256x128x128, .f32⟩
  | .hbm, ⟨3, _⟩ => ⟨S4x256x128x128, .f32⟩
  | .hbm, ⟨4, _⟩ => ⟨S4x8x32x16x8x16x8, .f32⟩
  | .hbm, ⟨5, _⟩ => ⟨S4x16x16x8x8x8x32, .f32⟩
  | .hbm, ⟨6, _⟩ => ⟨S1024x8x64x32, .f32⟩
  | .hbm, ⟨7, _⟩ => ⟨S1024x8x64x64, .f32⟩
  | .hbm, ⟨8, _⟩ => ⟨S_, .f32⟩
  | .hbm, ⟨9, _⟩ => ⟨S1024x8x64x64, .f32⟩
  | .hbm, ⟨10, _⟩ => ⟨S1024x8x64x64, .f32⟩
  | .hbm, ⟨11, _⟩ => ⟨S_, .f32⟩
  | .hbm, ⟨12, _⟩ => ⟨S1024x8x64, .f32⟩
  | .hbm, ⟨13, _⟩ => ⟨S_, .f32⟩
  | .hbm, ⟨14, _⟩ => ⟨S1024x8x64, .f32⟩
  | .hbm, ⟨15, _⟩ => ⟨S1024x8x64, .f32⟩
  | .hbm, ⟨16, _⟩ => ⟨S1024x8x64x1, .f32⟩
  | .hbm, ⟨17, _⟩ => ⟨S1024x8x64x64, .f32⟩
  | .hbm, ⟨18, _⟩ => ⟨S1024x8x64x64, .f32⟩
  | .hbm, ⟨19, _⟩ => ⟨S1024x8x64x64, .f32⟩
  | .hbm, ⟨20, _⟩ => ⟨S_, .f32⟩
  | .hbm, ⟨21, _⟩ => ⟨S1024x8x64, .f32⟩
  | .hbm, ⟨22, _⟩ => ⟨S1024x8x64x1, .f32⟩
  | .hbm, ⟨23, _⟩ => ⟨S1024x8x64x64, .f32⟩
  | .hbm, ⟨24, _⟩ => ⟨S1024x8x64x64, .f32⟩
  | .hbm, ⟨25, _⟩ => ⟨S1024x8x64x32, .f32⟩
  | .hbm, ⟨26, _⟩ => ⟨S4x16x16x8x8x8x32, .f32⟩
  | .hbm, ⟨27, _⟩ => ⟨S4x8x32x16x8x16x8, .f32⟩
  | .hbm, ⟨28, _⟩ => ⟨S4x256x128x128, .f32⟩
  | .hbm, ⟨29, _⟩ => ⟨S4x128x256x128, .f32⟩
  | .hbm, ⟨30, _⟩ => ⟨S4x128x256x128, .f32⟩
  | .hbm, ⟨31, _⟩ => ⟨S4x128x256x128, .f32⟩
  | .hbm, ⟨32, _⟩ => ⟨S4x128x256x256, .f32⟩
  | .hbm, ⟨33, _⟩ => ⟨S_, .f32⟩
  | .hbm, ⟨34, _⟩ => ⟨S4x128x256x256, .f32⟩
  | .hbm, ⟨35, _⟩ => ⟨S4x128x256x256, .f32⟩
  | .hbm, ⟨36, _⟩ => ⟨S_, .f32⟩
  | .hbm, ⟨37, _⟩ => ⟨S4x128x256, .f32⟩
  | .hbm, ⟨38, _⟩ => ⟨S_, .f32⟩
  | .hbm, ⟨39, _⟩ => ⟨S4x128x256, .f32⟩
  | .hbm, ⟨40, _⟩ => ⟨S4x128x256, .f32⟩
  | .hbm, ⟨41, _⟩ => ⟨S4x128x256x1, .f32⟩
  | .hbm, ⟨42, _⟩ => ⟨S4x128x256x256, .f32⟩
  | .hbm, ⟨43, _⟩ => ⟨S4x128x256x256, .f32⟩
  | .hbm, ⟨44, _⟩ => ⟨S4x128x256x256, .f32⟩
  | .hbm, ⟨45, _⟩ => ⟨S_, .f32⟩
  | .hbm, ⟨46, _⟩ => ⟨S4x128x256, .f32⟩
  | .hbm, ⟨47, _⟩ => ⟨S4x128x256x1, .f32⟩
  | .hbm, ⟨48, _⟩ => ⟨S4x128x256x256, .f32⟩
  | .hbm, ⟨49, _⟩ => ⟨S4x128x256x256, .f32⟩
  | .hbm, ⟨50, _⟩ => ⟨S4x128x256x128, .f32⟩
  | .hbm, ⟨51, _⟩ => ⟨S4x256x128x128, .f32⟩
  | .hbm, ⟨52, _⟩ => ⟨S4x256x128x128, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  shapeCasts_S4x256x128x128_S4x8x32x16x8x16x8 : S4x256x128x128.ShapeCasts S4x8x32x16x8x16x8
  transposes_S4x8x32x16x8x16x8_S4x16x16x8x8x8x32_0_3_5_1_4_6_2 : S4x8x32x16x8x16x8.Transposes [0, 3, 5, 1, 4, 6, 2] S4x16x16x8x8x8x32
  shapeCasts_S4x16x16x8x8x8x32_S1024x8x64x32 : S4x16x16x8x8x8x32.ShapeCasts S1024x8x64x32
  bcast_S_S1024x8x64x64 : S_.BroadcastsInDim S1024x8x64x64 (![] : Fin 0 → Fin S1024x8x64x64.rank)
  reducesTo_S1024x8x64x64_S1024x8x64_d3 : S1024x8x64x64.ReducesTo [3] S1024x8x64
  h_S_ : 0 < S_.numel
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  shapeCasts_S1024x8x64x32_S4x16x16x8x8x8x32 : S1024x8x64x32.ShapeCasts S4x16x16x8x8x8x32
  transposes_S4x16x16x8x8x8x32_S4x8x32x16x8x16x8_0_3_6_1_4_2_5 : S4x16x16x8x8x8x32.Transposes [0, 3, 6, 1, 4, 2, 5] S4x8x32x16x8x16x8
  shapeCasts_S4x8x32x16x8x16x8_S4x256x128x128 : S4x8x32x16x8x16x8.ShapeCasts S4x256x128x128
  transposes_S4x256x128x128_S4x128x256x128_0_2_1_3 : S4x256x128x128.Transposes [0, 2, 1, 3] S4x128x256x128
  bcast_S_S4x128x256x256 : S_.BroadcastsInDim S4x128x256x256 (![] : Fin 0 → Fin S4x128x256x256.rank)
  reducesTo_S4x128x256x256_S4x128x256_d3 : S4x128x256x256.ReducesTo [3] S4x128x256
  bcast_S_S4x128x256 : S_.BroadcastsInDim S4x128x256 (![] : Fin 0 → Fin S4x128x256.rank)
  bcast_S4x128x256_S4x128x256x1_0_1_2 : S4x128x256.BroadcastsInDim S4x128x256x1 (![0, 1, 2] : Fin 3 → Fin S4x128x256x1.rank)
  bcast_S4x128x256x1_S4x128x256x256_0_1_2_3 : S4x128x256x1.BroadcastsInDim S4x128x256x256 (![0, 1, 2, 3] : Fin 4 → Fin S4x128x256x256.rank)
  transposes_S4x128x256x128_S4x256x128x128_0_2_1_3 : S4x128x256x128.Transposes [0, 2, 1, 3] S4x256x128x128
  dot_S1024x8x64x32_S1024x8x64x32_S1024x8x64x64_3_3_2_2_01_01_wf : DotDims.WF S1024x8x64x32 S1024x8x64x32 S1024x8x64x64 [3] [3] [2] [2] [0, 1] [0, 1]
  dot_S1024x8x64x64_S1024x8x64x32_S1024x8x64x32_3_2_2_3_01_01_wf : DotDims.WF S1024x8x64x64 S1024x8x64x32 S1024x8x64x32 [3] [2] [2] [3] [0, 1] [0, 1]
  dot_S4x128x256x128_S4x128x256x128_S4x128x256x256_3_3_2_2_01_01_wf : DotDims.WF S4x128x256x128 S4x128x256x128 S4x128x256x256 [3] [3] [2] [2] [0, 1] [0, 1]
  dot_S4x128x256x256_S4x128x256x128_S4x128x256x128_3_2_2_3_01_01_wf : DotDims.WF S4x128x256x256 S4x128x256x128 S4x128x256x128 [3] [2] [2] [3] [0, 1] [0, 1]

variable [Facts₀]

def dot_S1024x8x64x32_S1024x8x64x32_S1024x8x64x64_3_3_2_2_01_01 : DotDims S1024x8x64x32 S1024x8x64x32 S1024x8x64x64 where
  lhsContracting := [3]
  rhsContracting := [3]
  lhsNonContracting := [2]
  rhsNonContracting := [2]
  lhsBatch := [0, 1]
  rhsBatch := [0, 1]
  wf := dot_S1024x8x64x32_S1024x8x64x32_S1024x8x64x64_3_3_2_2_01_01_wf
def dot_S1024x8x64x64_S1024x8x64x32_S1024x8x64x32_3_2_2_3_01_01 : DotDims S1024x8x64x64 S1024x8x64x32 S1024x8x64x32 where
  lhsContracting := [3]
  rhsContracting := [2]
  lhsNonContracting := [2]
  rhsNonContracting := [3]
  lhsBatch := [0, 1]
  rhsBatch := [0, 1]
  wf := dot_S1024x8x64x64_S1024x8x64x32_S1024x8x64x32_3_2_2_3_01_01_wf
def dot_S4x128x256x128_S4x128x256x128_S4x128x256x256_3_3_2_2_01_01 : DotDims S4x128x256x128 S4x128x256x128 S4x128x256x256 where
  lhsContracting := [3]
  rhsContracting := [3]
  lhsNonContracting := [2]
  rhsNonContracting := [2]
  lhsBatch := [0, 1]
  rhsBatch := [0, 1]
  wf := dot_S4x128x256x128_S4x128x256x128_S4x128x256x256_3_3_2_2_01_01_wf
def dot_S4x128x256x256_S4x128x256x128_S4x128x256x128_3_2_2_3_01_01 : DotDims S4x128x256x256 S4x128x256x128 S4x128x256x128 where
  lhsContracting := [3]
  rhsContracting := [2]
  lhsNonContracting := [2]
  rhsNonContracting := [3]
  lhsBatch := [0, 1]
  rhsBatch := [0, 1]
  wf := dot_S4x128x256x256_S4x128x256x128_S4x128x256x128_3_2_2_3_01_01_wf

class Facts : Prop extends Facts₀ where

variable [Facts]
-- ==== Proof.KRun.lean ====
/-
  The kernel program's run with its result named, and the result opened one layer: the program's last buffer is the
  sum of two re-laid arrays, each what one of the two launches leaves in its output array, and each launch is entered
  on re-laid copies of the arguments.

  The host operations between the launches only move numbers (reshapes and transposes); they are kept as the
  operations the program prints, never read at an index here.
-/
import proofs.«128985_j42305427866177_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

section TheRun
open Cert.KernelIdeal.Gen

-- the launch theorem's implicit arguments are found by unifying its conclusion with this one, which takes unfolding
-- plain definitions in a metavariable's type
set_option backward.isDefEq.respectTransparency.types false in
/-- Every weakly fair execution of the program terminates, nothing faulting, with the result buffer at the last
    boundary's contents and the four arguments as launched. -/
theorem run_named : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v18 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end TheRun

section TheResult
open Cert.KernelIdeal.Facts₀

/-- Argument 0 is still as launched when the second region is entered from: nothing before it writes an argument. -/
theorem W2_main_arg0 (c : Dev nD) : Gen.W2 m ρ c (Proc.devRef .tc main_arg0) = m ((c : Thread nD τ).loc main_arg0) :=
  calc Gen.W2 m ρ c (Proc.devRef .tc main_arg0)
    _ = Gen.W1 m ρ c (Proc.devRef .tc main_arg0) := Gen.W2_of_ne m ρ c main_arg0 (by decide)
    _ = Gen.W0 m ρ c (Proc.devRef .tc main_arg0) := StableHlo.after_of_forall_not_mem (b := Proc.devRef .tc main_arg0) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 is still as launched when the second region is entered from: nothing before it writes an argument. -/
theorem W2_main_arg1 (c : Dev nD) : Gen.W2 m ρ c (Proc.devRef .tc main_arg1) = m ((c : Thread nD τ).loc main_arg1) :=
  calc Gen.W2 m ρ c (Proc.devRef .tc main_arg1)
    _ = Gen.W1 m ρ c (Proc.devRef .tc main_arg1) := Gen.W2_of_ne m ρ c main_arg1 (by decide)
    _ = Gen.W0 m ρ c (Proc.devRef .tc main_arg1) := StableHlo.after_of_forall_not_mem (b := Proc.devRef .tc main_arg1) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 3 is still as launched when the second region is entered from: nothing before it writes an argument. -/
theorem W2_main_arg3 (c : Dev nD) : Gen.W2 m ρ c (Proc.devRef .tc main_arg3) = m ((c : Thread nD τ).loc main_arg3) :=
  calc Gen.W2 m ρ c (Proc.devRef .tc main_arg3)
    _ = Gen.W1 m ρ c (Proc.devRef .tc main_arg3) := Gen.W2_of_ne m ρ c main_arg3 (by decide)
    _ = Gen.W0 m ρ c (Proc.devRef .tc main_arg3) := StableHlo.after_of_forall_not_mem (b := Proc.devRef .tc main_arg3) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first launch is entered on the first argument, cut into 8×8 windows per head. -/
theorem entry_window (c : Dev nD) :
    Gen.V1 m ρ c main_v3
      = shapeCast S8192x64x32 (shapeCast S1024x8x64x32 (transpose S4x16x16x8x8x8x32 [0, 3, 5, 1, 4, 6, 2]
          (shapeCast S4x8x32x16x8x16x8 (m ((c : Thread nD τ).loc main_arg0)) shapeCasts_S4x256x128x128_S4x8x32x16x8x16x8)
          transposes_S4x8x32x16x8x16x8_S4x16x16x8x8x8x32_0_3_5_1_4_6_2) shapeCasts_S4x16x16x8x8x8x32_S1024x8x64x32)
          shapeCasts_S1024x8x64x32_S8192x64x32 := by
  show StableHlo.after Gen.hostOps0 (Gen.W0 m ρ c) (Proc.devRef .tc main_v3) = _
  after_results
  rfl

/-- The second launch's query array is the first argument with its channel axis moved inside each spatial group. -/
theorem entry_query (c : Dev nD) :
    Gen.V3 m ρ c main_v10
      = shapeCast S512x256x128 (transpose S4x128x256x128 [0, 2, 1, 3] (m ((c : Thread nD τ).loc main_arg0))
          transposes_S4x256x128x128_S4x128x256x128_0_2_1_3) shapeCasts_S4x128x256x128_S512x256x128 := by
  show StableHlo.after Gen.hostOps1 (Gen.W2 m ρ c) (Proc.devRef .tc main_v10) = _
  after_results
  rw [W2_main_arg0]
  rfl

/-- Its key array is the second argument, re-laid the same way. -/
theorem entry_key (c : Dev nD) :
    Gen.V3 m ρ c main_v12
      = shapeCast S512x256x128 (transpose S4x128x256x128 [0, 2, 1, 3] (m ((c : Thread nD τ).loc main_arg1))
          transposes_S4x256x128x128_S4x128x256x128_0_2_1_3) shapeCasts_S4x128x256x128_S512x256x128 := by
  show StableHlo.after Gen.hostOps1 (Gen.W2 m ρ c) (Proc.devRef .tc main_v12) = _
  after_results
  rw [W2_main_arg1]
  rfl

/-- Its value array is the fourth argument, re-laid the same way. -/
theorem entry_value (c : Dev nD) :
    Gen.V3 m ρ c main_v14
      = shapeCast S512x256x128 (transpose S4x128x256x128 [0, 2, 1, 3] (m ((c : Thread nD τ).loc main_arg3))
          transposes_S4x256x128x128_S4x128x256x128_0_2_1_3) shapeCasts_S4x128x256x128_S512x256x128 := by
  show StableHlo.after Gen.hostOps1 (Gen.W2 m ρ c) (Proc.devRef .tc main_v14) = _
  after_results
  rw [W2_main_arg3]
  rfl

/-- The first launch's output array, put back into the argument's layout, as the second launch leaves it untouched. -/
theorem window_part (c : Dev nD) :
    Gen.W4 m ρ c (Proc.devRef .tc main_v8)
      = shapeCast S4x256x128x128 (transpose S4x8x32x16x8x16x8 [0, 3, 6, 1, 4, 2, 5]
          (shapeCast S4x16x16x8x8x8x32 (shapeCast S1024x8x64x32 ((Gen.dat0 (Gen.V1 m ρ) c).arrAt 1 cfg0.N)
            shapeCasts_S8192x64x32_S1024x8x64x32) shapeCasts_S1024x8x64x32_S4x16x16x8x8x8x32)
          transposes_S4x16x16x8x8x8x32_S4x8x32x16x8x16x8_0_3_6_1_4_2_5) shapeCasts_S4x8x32x16x8x16x8_S4x256x128x128 := by
  rw [Gen.W4_of_ne m ρ c main_v8 (by decide)]
  show StableHlo.after Gen.hostOps1 (Gen.W2 m ρ c) (Proc.devRef .tc main_v8) = _
  after_results
  rw [show Gen.W2 m ρ c (Proc.devRef .tc main_v4) = (Gen.dat0 (Gen.V1 m ρ) c).arrAt 1 cfg0.N from Gen.W2_arr m ρ c 1]
  rfl

/-- THE RESULT: the sum of the two launches' output arrays, each put back into the argument's layout. -/
theorem result_eq (c : Dev nD) :
    Gen.W5 m ρ c (Proc.devRef .tc main_v18)
      = addf
          (shapeCast S4x256x128x128 (transpose S4x8x32x16x8x16x8 [0, 3, 6, 1, 4, 2, 5]
            (shapeCast S4x16x16x8x8x8x32 (shapeCast S1024x8x64x32 ((Gen.dat0 (Gen.V1 m ρ) c).arrAt 1 cfg0.N)
              shapeCasts_S8192x64x32_S1024x8x64x32) shapeCasts_S1024x8x64x32_S4x16x16x8x8x8x32)
            transposes_S4x16x16x8x8x8x32_S4x8x32x16x8x16x8_0_3_6_1_4_2_5) shapeCasts_S4x8x32x16x8x16x8_S4x256x128x128)
          (transpose S4x256x128x128 [0, 2, 1, 3]
            (shapeCast S4x128x256x128 ((Gen.dat1 (Gen.V3 m ρ) c).arrAt 3 cfg1.N) shapeCasts_S512x256x128_S4x128x256x128)
            transposes_S4x128x256x128_S4x256x128x128_0_2_1_3) := by
  show StableHlo.after Gen.hostOps2 (Gen.W4 m ρ c) (Proc.devRef .tc main_v18) = _
  after_results
  rw [window_part, show Gen.W4 m ρ c (Proc.devRef .tc main_v15) = (Gen.dat1 (Gen.V3 m ρ) c).arrAt 3 cfg1.N from Gen.W4_arr m ρ c 3]
  rfl

end TheResult

end Cert.KernelIdeal.Run

end
-- ==== Proof.Attn.lean ====
/-
  The mathematics both programs compute on one slab: softmax attention of a block of query rows against a block of
  key rows and value rows, over the extended reals.

  For queries `Q : nq × d`, keys `K : nk × d`, values `V : nk × dv`, a scale `sc` and a floor `ninf`:
    scores   s q k = (∑ t, Q q t · K k t) · sc
    row max  μ q   = max ninf (max over k of s q k, the fold started at ninf)
    weights  e q k = exp (s q k − μ q)
    result   o q j = ∑ k, (e q k / ∑ k', e q k') · V k j
  Every step is the textbook one; nothing here depends on how the rows are tiled or in which order a sum is taken.
-/
import Idealize.ShloMosaic.PureOps.Ideal
import Idealize.ShloMosaic.Lib.ValueIdx

noncomputable section

namespace Cert.Attn

open Idealize.ShloMosaic Idealize.ShloMosaic.ValueIdx

variable {nq nk d dv : ℕ}

/-- The scaled inner products of query row `q` with key row `k`. -/
def scores (sc : EReal) (Q : Fin nq → Fin d → EReal) (K : Fin nk → Fin d → EReal) (q : Fin nq) (k : Fin nk) : EReal :=
  (∑ t : Fin d, Q q t * K k t) * sc

/-- The largest score of row `q`, never below the floor. -/
def rowMax (ninf : EReal) (S : Fin nq → Fin nk → EReal) (q : Fin nq) : EReal :=
  max ninf ((Finset.univ : Finset (Fin nk)).fold max ninf (S q))

/-- The unnormalised softmax weight. -/
def weight (ninf : EReal) (S : Fin nq → Fin nk → EReal) (q : Fin nq) (k : Fin nk) : EReal :=
  Ideal.exp (S q k - rowMax ninf S q)

/-- The normalised softmax weight. -/
def prob (ninf : EReal) (S : Fin nq → Fin nk → EReal) (q : Fin nq) (k : Fin nk) : EReal :=
  Ideal.div (weight ninf S q k) (∑ k' : Fin nk, weight ninf S q k')

/-- Softmax attention of the slab: row `q`, feature `j` of the result. -/
def attn (sc ninf : EReal) (Q : Fin nq → Fin d → EReal) (K : Fin nk → Fin d → EReal) (V : Fin nk → Fin dv → EReal)
    (q : Fin nq) (j : Fin dv) : EReal :=
  ∑ k : Fin nk, prob ninf (scores sc Q K) q k * V k j

/-! ## The same on every slab of an array

An array whose leading axes number the slabs (one leading axis, or two) and whose last two axes are a slab's rows and
features: the result's slab is the attention of the operands' slabs with the same number. -/

variable {nb n0 n1 : ℕ}

/-- Slabs numbered by ONE leading axis. -/
def slabs3 (sc ninf : EReal) (Q : (⟨3, ![nb, nq, d]⟩ : Shape).Idx → EReal) (K : (⟨3, ![nb, nk, d]⟩ : Shape).Idx → EReal)
    (V : (⟨3, ![nb, nk, dv]⟩ : Shape).Idx → EReal) : (⟨3, ![nb, nq, dv]⟩ : Shape).Idx → EReal :=
  fun i => attn sc ninf (fun a t => Q (ix3 (i 0) a t)) (fun a t => K (ix3 (i 0) a t)) (fun a t => V (ix3 (i 0) a t)) (i 1) (i 2)

/-- Slabs numbered by TWO leading axes. -/
def slabs4 (sc ninf : EReal) (Q : (⟨4, ![n0, n1, nq, d]⟩ : Shape).Idx → EReal) (K : (⟨4, ![n0, n1, nk, d]⟩ : Shape).Idx → EReal)
    (V : (⟨4, ![n0, n1, nk, dv]⟩ : Shape).Idx → EReal) : (⟨4, ![n0, n1, nq, dv]⟩ : Shape).Idx → EReal :=
  fun i => attn sc ninf (fun a t => Q (ix4 (i 0) (i 1) a t)) (fun a t => K (ix4 (i 0) (i 1) a t)) (fun a t => V (ix4 (i 0) (i 1) a t)) (i 2) (i 3)

theorem slabs3_apply (sc ninf : EReal) (Q : (⟨3, ![nb, nq, d]⟩ : Shape).Idx → EReal) (K : (⟨3, ![nb, nk, d]⟩ : Shape).Idx → EReal)
    (V : (⟨3, ![nb, nk, dv]⟩ : Shape).Idx → EReal) (b : Fin nb) (q : Fin nq) (j : Fin dv) :
    slabs3 sc ninf Q K V (ix3 b q j)
      = attn sc ninf (fun a t => Q (ix3 b a t)) (fun a t => K (ix3 b a t)) (fun a t => V (ix3 b a t)) q j := rfl

theorem slabs4_apply (sc ninf : EReal) (Q : (⟨4, ![n0, n1, nq, d]⟩ : Shape).Idx → EReal) (K : (⟨4, ![n0, n1, nk, d]⟩ : Shape).Idx → EReal)
    (V : (⟨4, ![n0, n1, nk, dv]⟩ : Shape).Idx → EReal) (a0 : Fin n0) (a1 : Fin n1) (q : Fin nq) (j : Fin dv) :
    slabs4 sc ninf Q K V (ix4 a0 a1 q j)
      = attn sc ninf (fun a t => Q (ix4 a0 a1 a t)) (fun a t => K (ix4 a0 a1 a t)) (fun a t => V (ix4 a0 a1 a t)) q j := rfl

/-! ## The three float words both programs write -/

/-- The score scale of the 8×8-window attention (the single-precision word both programs carry; head width 32). -/
abbrev scW : EReal := Ideal.ofBits .f32 0x3E3504F3#32
/-- The score scale of the channel attention (head width 128). -/
abbrev scC : EReal := Ideal.ofBits .f32 0x3DB504F3#32
/-- The word the row maxima start from. -/
abbrev floor : EReal := Ideal.ofBits .f32 0xFF800000#32

end Cert.Attn

end
-- ==== Proof.Merge.lean ====
/-
  Numbering the slabs by one merged axis or by two axes is the same attention: merging the two leading axes of the
  operands, taking the attention slab by slab, and splitting the leading axis of the result again gives the attention
  taken slab by slab over the two axes. A reshape keeps every element's row-major position, and the position of
  element `(n, h, r, f)` is that of `(n · H + h, r, f)`.
-/
import proofs.«128985_j42305427866177_2_alg».proof.Proof.Attn
import Idealize.ShloMosaic.Lib.Pipeline.Value

noncomputable section

namespace Cert.Attn

open Idealize.ShloMosaic Idealize.ShloMosaic.ValueIdx

/-- The window attention's slabs: 1024 windows × 8 heads, merged to 8192. -/
theorem merge_window (sc ninf : EReal) (Q K V : (⟨4, ![1024, 8, 64, 32]⟩ : Shape).Idx → EReal)
    (h43 : (⟨4, ![1024, 8, 64, 32]⟩ : Shape).ShapeCasts (⟨3, ![8192, 64, 32]⟩ : Shape)) (h34 : (⟨3, ![8192, 64, 32]⟩ : Shape).ShapeCasts (⟨4, ![1024, 8, 64, 32]⟩ : Shape)) :
    shapeCast (⟨4, ![1024, 8, 64, 32]⟩ : Shape) (slabs3 sc ninf (shapeCast (⟨3, ![8192, 64, 32]⟩ : Shape) Q h43) (shapeCast (⟨3, ![8192, 64, 32]⟩ : Shape) K h43) (shapeCast (⟨3, ![8192, 64, 32]⟩ : Shape) V h43)) h34
      = slabs4 sc ninf Q K V := by
  funext i
  obtain ⟨n, h, q, j, rfl⟩ : ∃ (n : Fin 1024) (h : Fin 8) (q : Fin 64) (j : Fin 32), i = ix4 n h q j :=
    ⟨i 0, i 1, i 2, i 3, eq_ix4 i⟩
  have hb : n.val * 8 + h.val < 8192 := by have := n.isLt; have := h.isLt; omega
  -- slab `(n, h)` of the rank-4 array is slab `n · 8 + h` of the merged one: same row-major position
  have e : ∀ X : (⟨4, ![1024, 8, 64, 32]⟩ : Shape).Idx → EReal,
      (fun (a : Fin 64) (t : Fin 32) => shapeCast (⟨3, ![8192, 64, 32]⟩ : Shape) X h43 (ix3 (⟨n.val * 8 + h.val, hb⟩ : Fin 8192) a t))
        = fun a t => X (ix4 n h a t) := fun X => funext fun a => funext fun t =>
    shapeCast_apply X h43 _ (ix4 n h a t) (by
      rw [Shape.rowMajor_val_four, Shape.rowMajor_val_three]
      show ((n.val * 8 + h.val) * 64 + a.val) * 32 + t.val = ((n.val * 8 + h.val) * 64 + a.val) * 32 + t.val
      rfl)
  refine (shapeCast_apply _ h34 (ix4 n h q j) (ix3 (⟨n.val * 8 + h.val, hb⟩ : Fin 8192) q j) (by
    rw [Shape.rowMajor_val_three, Shape.rowMajor_val_four]
    show ((n.val * 8 + h.val) * 64 + q.val) * 32 + j.val = ((n.val * 8 + h.val) * 64 + q.val) * 32 + j.val
    rfl)).trans ?_
  rw [slabs3_apply, slabs4_apply, e Q, e K, e V]

/-- The channel attention's slabs: 4 images × 128 spatial groups, merged to 512. -/
theorem merge_channel (sc ninf : EReal) (Q K V : (⟨4, ![4, 128, 256, 128]⟩ : Shape).Idx → EReal)
    (h43 : (⟨4, ![4, 128, 256, 128]⟩ : Shape).ShapeCasts (⟨3, ![512, 256, 128]⟩ : Shape)) (h34 : (⟨3, ![512, 256, 128]⟩ : Shape).ShapeCasts (⟨4, ![4, 128, 256, 128]⟩ : Shape)) :
    shapeCast (⟨4, ![4, 128, 256, 128]⟩ : Shape) (slabs3 sc ninf (shapeCast (⟨3, ![512, 256, 128]⟩ : Shape) Q h43) (shapeCast (⟨3, ![512, 256, 128]⟩ : Shape) K h43) (shapeCast (⟨3, ![512, 256, 128]⟩ : Shape) V h43)) h34
      = slabs4 sc ninf Q K V := by
  funext i
  obtain ⟨n, h, q, j, rfl⟩ : ∃ (n : Fin 4) (h : Fin 128) (q : Fin 256) (j : Fin 128), i = ix4 n h q j :=
    ⟨i 0, i 1, i 2, i 3, eq_ix4 i⟩
  have hb : n.val * 128 + h.val < 512 := by have := n.isLt; have := h.isLt; omega
  -- slab `(n, h)` of the rank-4 array is slab `n · 128 + h` of the merged one: same row-major position
  have e : ∀ X : (⟨4, ![4, 128, 256, 128]⟩ : Shape).Idx → EReal,
      (fun (a : Fin 256) (t : Fin 128) => shapeCast (⟨3, ![512, 256, 128]⟩ : Shape) X h43 (ix3 (⟨n.val * 128 + h.val, hb⟩ : Fin 512) a t))
        = fun a t => X (ix4 n h a t) := fun X => funext fun a => funext fun t =>
    shapeCast_apply X h43 _ (ix4 n h a t) (by
      rw [Shape.rowMajor_val_four, Shape.rowMajor_val_three]
      show ((n.val * 128 + h.val) * 256 + a.val) * 128 + t.val = ((n.val * 128 + h.val) * 256 + a.val) * 128 + t.val
      rfl)
  refine (shapeCast_apply _ h34 (ix4 n h q j) (ix3 (⟨n.val * 128 + h.val, hb⟩ : Fin 512) q j) (by
    rw [Shape.rowMajor_val_three, Shape.rowMajor_val_four]
    show ((n.val * 128 + h.val) * 256 + q.val) * 128 + j.val = ((n.val * 128 + h.val) * 256 + q.val) * 128 + j.val
    rfl)).trans ?_
  rw [slabs3_apply, slabs4_apply, e Q, e K, e V]

end Cert.Attn

end
-- ==== Proof.KPay.lean ====
/-
  The kernels' stored values, element by element: what each body stores at row `q`, feature `j` of slab `b` of its block
  is the softmax attention (Attn.lean) of slab `b` of the blocks it loaded.

  Each whole-block operation of a body is first read as a function of the block index: a batched matrix product as a
  sum over the contracted coordinate within one slab, a lane reduction as a sum or a maximum over the last coordinate,
  the keep-dimension broadcast as a column repeated along the last axis. The stored value is then the composition.
-/
import proofs.«128985_j42305427866177_2_alg».proof.Proof.Attn
import proofs.«128985_j42305427866177_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Facts₀

variable [Cert.KernelIdeal.Facts]

/-! ## The window kernel: blocks of 128 slabs, 64 rows, 32 features -/

theorem qk0_lhs0 (i : S128x64x64.Idx) (c : dot_S128x64x32_S128x64x32_S128x64x64_2_2_1_1_0_0.contr.Idx) :
    (dot_S128x64x32_S128x64x32_S128x64x64_2_2_1_1_0_0.lhsIdx i c 0).val = (i 0).val := by
  unfold DotDims.lhsIdx
  rw [dif_pos (show (0 : Fin S128x64x32.rank) ∈ dot_S128x64x32_S128x64x32_S128x64x64_2_2_1_1_0_0.lhsBatch by decide)]
  rfl
theorem qk0_lhs1 (i : S128x64x64.Idx) (c : dot_S128x64x32_S128x64x32_S128x64x64_2_2_1_1_0_0.contr.Idx) :
    (dot_S128x64x32_S128x64x32_S128x64x64_2_2_1_1_0_0.lhsIdx i c 1).val = (i 1).val := by
  unfold DotDims.lhsIdx
  rw [dif_neg (show ¬(1 : Fin S128x64x32.rank) ∈ dot_S128x64x32_S128x64x32_S128x64x64_2_2_1_1_0_0.lhsBatch by decide), dif_pos (show (1 : Fin S128x64x32.rank) ∈ dot_S128x64x32_S128x64x32_S128x64x64_2_2_1_1_0_0.lhsNonContracting by decide)]
  rfl
theorem qk0_lhs2 (i : S128x64x64.Idx) (c : dot_S128x64x32_S128x64x32_S128x64x64_2_2_1_1_0_0.contr.Idx) :
    (dot_S128x64x32_S128x64x32_S128x64x64_2_2_1_1_0_0.lhsIdx i c 2).val = (c ⟨0, by decide⟩).val :=
  dot_S128x64x32_S128x64x32_S128x64x64_2_2_1_1_0_0.lhsIdx_val_of_single rfl i c
theorem qk0_rhs0 (i : S128x64x64.Idx) (c : dot_S128x64x32_S128x64x32_S128x64x64_2_2_1_1_0_0.contr.Idx) :
    (dot_S128x64x32_S128x64x32_S128x64x64_2_2_1_1_0_0.rhsIdx i c 0).val = (i 0).val := by
  unfold DotDims.rhsIdx
  rw [dif_pos (show (0 : Fin S128x64x32.rank) ∈ dot_S128x64x32_S128x64x32_S128x64x64_2_2_1_1_0_0.rhsBatch by decide)]
  rfl
theorem qk0_rhs1 (i : S128x64x64.Idx) (c : dot_S128x64x32_S128x64x32_S128x64x64_2_2_1_1_0_0.contr.Idx) :
    (dot_S128x64x32_S128x64x32_S128x64x64_2_2_1_1_0_0.rhsIdx i c 1).val = (i 2).val := by
  unfold DotDims.rhsIdx
  rw [dif_neg (show ¬(1 : Fin S128x64x32.rank) ∈ dot_S128x64x32_S128x64x32_S128x64x64_2_2_1_1_0_0.rhsBatch by decide), dif_pos (show (1 : Fin S128x64x32.rank) ∈ dot_S128x64x32_S128x64x32_S128x64x64_2_2_1_1_0_0.rhsNonContracting by decide)]
  rfl
theorem qk0_rhs2 (i : S128x64x64.Idx) (c : dot_S128x64x32_S128x64x32_S128x64x64_2_2_1_1_0_0.contr.Idx) :
    (dot_S128x64x32_S128x64x32_S128x64x64_2_2_1_1_0_0.rhsIdx i c 2).val = (c ⟨0, by decide⟩).val :=
  dot_S128x64x32_S128x64x32_S128x64x64_2_2_1_1_0_0.rhsIdx_val_of_single rfl i c

/-- Scores: the product of a block with the transpose of another, slab by slab, is the sum over the 32 features. -/
theorem mmQK0 (l r : FVec Ideal S128x64x32 .bf16) (b : Fin 128) (q k : Fin 64) :
    matmul dot_S128x64x32_S128x64x32_S128x64x64_2_2_1_1_0_0 none l r (constant S128x64x64 .f32 0x00000000#32) (ix3 b q k)
      = ∑ t : Fin 32, l (ix3 b q t) * r (ix3 b k t) := by
  simp only [matmul]
  rw [Ideal.matmul_constant_zero_apply, ← Equiv.sum_comp (contrEquiv1 dot_S128x64x32_S128x64x32_S128x64x64_2_2_1_1_0_0 32 rfl rfl).symm]
  refine Finset.sum_congr rfl fun t _ => ?_
  have hk := contrEquiv1_symm_val dot_S128x64x32_S128x64x32_S128x64x64_2_2_1_1_0_0 32 rfl rfl t
  have el : dot_S128x64x32_S128x64x32_S128x64x64_2_2_1_1_0_0.lhsIdx (ix3 b q k) ((contrEquiv1 dot_S128x64x32_S128x64x32_S128x64x64_2_2_1_1_0_0 32 rfl rfl).symm t) = ix3 b q t :=
    funext fun a => Fin.ext (by
      match a with
      | ⟨0, _⟩ => exact qk0_lhs0 _ _
      | ⟨1, _⟩ => exact qk0_lhs1 _ _
      | ⟨2, _⟩ => exact (qk0_lhs2 _ _).trans hk)
  have er : dot_S128x64x32_S128x64x32_S128x64x64_2_2_1_1_0_0.rhsIdx (ix3 b q k) ((contrEquiv1 dot_S128x64x32_S128x64x32_S128x64x64_2_2_1_1_0_0 32 rfl rfl).symm t) = ix3 b k t :=
    funext fun a => Fin.ext (by
      match a with
      | ⟨0, _⟩ => exact qk0_rhs0 _ _
      | ⟨1, _⟩ => exact qk0_rhs1 _ _
      | ⟨2, _⟩ => exact (qk0_rhs2 _ _).trans hk)
  rw [el, er]

theorem pv0_lhs0 (i : S128x64x32.Idx) (c : dot_S128x64x64_S128x64x32_S128x64x32_2_1_1_2_0_0.contr.Idx) :
    (dot_S128x64x64_S128x64x32_S128x64x32_2_1_1_2_0_0.lhsIdx i c 0).val = (i 0).val := by
  unfold DotDims.lhsIdx
  rw [dif_pos (show (0 : Fin S128x64x64.rank) ∈ dot_S128x64x64_S128x64x32_S128x64x32_2_1_1_2_0_0.lhsBatch by decide)]
  rfl
theorem pv0_lhs1 (i : S128x64x32.Idx) (c : dot_S128x64x64_S128x64x32_S128x64x32_2_1_1_2_0_0.contr.Idx) :
    (dot_S128x64x64_S128x64x32_S128x64x32_2_1_1_2_0_0.lhsIdx i c 1).val = (i 1).val := by
  unfold DotDims.lhsIdx
  rw [dif_neg (show ¬(1 : Fin S128x64x64.rank) ∈ dot_S128x64x64_S128x64x32_S128x64x32_2_1_1_2_0_0.lhsBatch by decide), dif_pos (show (1 : Fin S128x64x64.rank) ∈ dot_S128x64x64_S128x64x32_S128x64x32_2_1_1_2_0_0.lhsNonContracting by decide)]
  rfl
theorem pv0_lhs2 (i : S128x64x32.Idx) (c : dot_S128x64x64_S128x64x32_S128x64x32_2_1_1_2_0_0.contr.Idx) :
    (dot_S128x64x64_S128x64x32_S128x64x32_2_1_1_2_0_0.lhsIdx i c 2).val = (c ⟨0, by decide⟩).val :=
  dot_S128x64x64_S128x64x32_S128x64x32_2_1_1_2_0_0.lhsIdx_val_of_single rfl i c
theorem pv0_rhs0 (i : S128x64x32.Idx) (c : dot_S128x64x64_S128x64x32_S128x64x32_2_1_1_2_0_0.contr.Idx) :
    (dot_S128x64x64_S128x64x32_S128x64x32_2_1_1_2_0_0.rhsIdx i c 0).val = (i 0).val := by
  unfold DotDims.rhsIdx
  rw [dif_pos (show (0 : Fin S128x64x32.rank) ∈ dot_S128x64x64_S128x64x32_S128x64x32_2_1_1_2_0_0.rhsBatch by decide)]
  rfl
theorem pv0_rhs1 (i : S128x64x32.Idx) (c : dot_S128x64x64_S128x64x32_S128x64x32_2_1_1_2_0_0.contr.Idx) :
    (dot_S128x64x64_S128x64x32_S128x64x32_2_1_1_2_0_0.rhsIdx i c 1).val = (c ⟨0, by decide⟩).val :=
  dot_S128x64x64_S128x64x32_S128x64x32_2_1_1_2_0_0.rhsIdx_val_of_single rfl i c
theorem pv0_rhs2 (i : S128x64x32.Idx) (c : dot_S128x64x64_S128x64x32_S128x64x32_2_1_1_2_0_0.contr.Idx) :
    (dot_S128x64x64_S128x64x32_S128x64x32_2_1_1_2_0_0.rhsIdx i c 2).val = (i 2).val := by
  unfold DotDims.rhsIdx
  rw [dif_neg (show ¬(2 : Fin S128x64x32.rank) ∈ dot_S128x64x64_S128x64x32_S128x64x32_2_1_1_2_0_0.rhsBatch by decide), dif_pos (show (2 : Fin S128x64x32.rank) ∈ dot_S128x64x64_S128x64x32_S128x64x32_2_1_1_2_0_0.rhsNonContracting by decide)]
  rfl

/-- Result: the product of the weights with the value block, slab by slab, is the sum over the 64 key rows. -/
theorem mmPV0 (p : FVec Ideal S128x64x64 .bf16) (r : FVec Ideal S128x64x32 .bf16) (b : Fin 128) (q : Fin 64) (j : Fin 32) :
    matmul dot_S128x64x64_S128x64x32_S128x64x32_2_1_1_2_0_0 none p r (constant S128x64x32 .f32 0x00000000#32) (ix3 b q j)
      = ∑ k : Fin 64, p (ix3 b q k) * r (ix3 b k j) := by
  simp only [matmul]
  rw [Ideal.matmul_constant_zero_apply, ← Equiv.sum_comp (contrEquiv1 dot_S128x64x64_S128x64x32_S128x64x32_2_1_1_2_0_0 64 rfl rfl).symm]
  refine Finset.sum_congr rfl fun k _ => ?_
  have hk := contrEquiv1_symm_val dot_S128x64x64_S128x64x32_S128x64x32_2_1_1_2_0_0 64 rfl rfl k
  have el : dot_S128x64x64_S128x64x32_S128x64x32_2_1_1_2_0_0.lhsIdx (ix3 b q j) ((contrEquiv1 dot_S128x64x64_S128x64x32_S128x64x32_2_1_1_2_0_0 64 rfl rfl).symm k) = ix3 b q k :=
    funext fun a => Fin.ext (by
      match a with
      | ⟨0, _⟩ => exact pv0_lhs0 _ _
      | ⟨1, _⟩ => exact pv0_lhs1 _ _
      | ⟨2, _⟩ => exact (pv0_lhs2 _ _).trans hk)
  have er : dot_S128x64x64_S128x64x32_S128x64x32_2_1_1_2_0_0.rhsIdx (ix3 b q j) ((contrEquiv1 dot_S128x64x64_S128x64x32_S128x64x32_2_1_1_2_0_0 64 rfl rfl).symm k) = ix3 b k j :=
    funext fun a => Fin.ext (by
      match a with
      | ⟨0, _⟩ => exact pv0_rhs0 _ _
      | ⟨1, _⟩ => exact (pv0_rhs1 _ _).trans hk
      | ⟨2, _⟩ => exact pv0_rhs2 _ _)
  rw [el, er]

/-- The lane maximum of a row, started at the floor word. -/
theorem laneMax0 (v : FVec Ideal S128x64x64 .f32) (b : Fin 128) (q : Fin 64) :
    multiReduction .maximumf [2] S128x64 v 0xFF800000#32 reduces_S128x64x64_S128x64 (.inl rfl) rfl (ix2 b q)
      = (Finset.univ : Finset (Fin 64)).fold max (Ideal.ofBits .f32 0xFF800000#32) (fun k => v (ix3 b q k)) := by
  refine (Ideal.multiReduction_maximumf_single v 0xFF800000#32 reduces_S128x64x64_S128x64 (.inl rfl) rfl (ix2 b q)).trans ?_
  refine congrArg (fun f => Finset.fold max (Ideal.ofBits .f32 0xFF800000#32) f (Finset.univ : Finset (Fin 64))) ?_
  funext k
  exact congrArg v (funext fun a => Fin.ext (by match a with | ⟨0, _⟩ => rfl | ⟨1, _⟩ => rfl | ⟨2, _⟩ => rfl))

/-- The lane sum of a row. -/
theorem laneSum0 (v : FVec Ideal S128x64x64 .f32) (b : Fin 128) (q : Fin 64) :
    multiReduction .add [2] S128x64 v 0x00000000#32 reduces_S128x64x64_S128x64 (.inl rfl) rfl (ix2 b q)
      = ∑ k : Fin 64, v (ix3 b q k) := by
  refine (Ideal.multiReduction_add_single v 0x00000000#32 reduces_S128x64x64_S128x64 (.inl rfl) rfl (ix2 b q)).trans ?_
  refine Finset.sum_congr rfl fun k _ => ?_
  exact congrArg v (funext fun a => Fin.ext (by match a with | ⟨0, _⟩ => rfl | ⟨1, _⟩ => rfl | ⟨2, _⟩ => rfl))

/-- A per-row value kept as a unit last axis and repeated along it reads the row's value everywhere. -/
theorem colBcast0 (u : FVec Ideal S128x64 .f32) (b : Fin 128) (q k : Fin 64) :
    broadcastTo S128x64x64 (shapeCast S128x64x1 u shapeCasts_S128x64_S128x64x1) broadcasts_S128x64x1_S128x64x64 (ix3 b q k)
      = u (ix2 b q) := by
  refine (broadcastTo_apply _ broadcasts_S128x64x1_S128x64x64 (ix3 b q k) (ix3 b q (0 : Fin 1)) fun a => ?_).trans ?_
  · match a with
    | ⟨0, _⟩ => show b.val = if (128 : Nat) = 1 then 0 else b.val; rw [if_neg (by decide)]
    | ⟨1, _⟩ => show q.val = if (64 : Nat) = 1 then 0 else q.val; rw [if_neg (by decide)]
    | ⟨2, _⟩ => show (0 : Nat) = if (1 : Nat) = 1 then 0 else k.val; rw [if_pos rfl]
  · refine shapeCast_apply u shapeCasts_S128x64_S128x64x1 (ix3 b q (0 : Fin 1)) (ix2 b q) ?_
    rw [Shape.rowMajor_val_two, Shape.rowMajor_val_three]
    show b.val * 64 + q.val = (b.val * 64 + q.val) * 1 + 0
    omega

/-- A loaded block after the format change the body applies to it: the same numbers. -/
def narrowed0 (x : Vec Ideal S128x64x32 .f32) : FVec Ideal S128x64x32 .bf16 :=
  truncf .bf16 (shapeCast S128x64x32 x shapeCasts_S128x64x32_S128x64x32) bitsLt_bf16_f32

theorem narrowed0_apply (x : Vec Ideal S128x64x32 .f32) (i : S128x64x32.Idx) : narrowed0 x i = x i := by
  unfold narrowed0
  rw [shapeCast_self]
  rfl

/-- The scaled scores of the whole block. -/
def scoreVec0 (xq xk : Vec Ideal S128x64x32 .f32) : FVec Ideal S128x64x64 .f32 :=
  mulf (matmul dot_S128x64x32_S128x64x32_S128x64x64_2_2_1_1_0_0 none (narrowed0 xq) (narrowed0 xk) (constant S128x64x64 .f32 0x00000000#32))
    (broadcast S128x64x64 (Scalar.ofBits .f32 0x3E3504F3#32))

/-- The row maxima of the whole block. -/
def maxVec0 (xq xk : Vec Ideal S128x64x32 .f32) : FVec Ideal S128x64 .f32 :=
  maximumf (broadcast S128x64 (Scalar.ofBits .f32 0xFF800000#32))
    (multiReduction .maximumf [2] S128x64 (scoreVec0 xq xk) 0xFF800000#32 reduces_S128x64x64_S128x64 (.inl rfl) rfl)

/-- The unnormalised weights of the whole block. -/
def expVec0 (xq xk : Vec Ideal S128x64x32 .f32) : FVec Ideal S128x64x64 .f32 :=
  exp (subf (scoreVec0 xq xk)
    (broadcastTo S128x64x64 (shapeCast S128x64x1 (maxVec0 xq xk) shapeCasts_S128x64_S128x64x1) broadcasts_S128x64x1_S128x64x64))

/-- The normalised weights of the whole block. -/
def probVec0 (xq xk : Vec Ideal S128x64x32 .f32) : FVec Ideal S128x64x64 .f32 :=
  divf (expVec0 xq xk)
    (broadcastTo S128x64x64 (shapeCast S128x64x1
      (multiReduction .add [2] S128x64 (expVec0 xq xk) 0x00000000#32 reduces_S128x64x64_S128x64 (.inl rfl) rfl)
      shapeCasts_S128x64_S128x64x1) broadcasts_S128x64x1_S128x64x64)

/-- The stored value is the weights times the value block. -/
theorem stored0_eq (x : Vec Ideal S128x64x32 .f32) :
    Gen.k0_pay1 (F := Ideal) x
      = matmul dot_S128x64x64_S128x64x32_S128x64x32_2_1_1_2_0_0 none (truncf .bf16 (probVec0 x x) bitsLt_bf16_f32) (narrowed0 x)
          (constant S128x64x32 .f32 0x00000000#32) := rfl

section
variable (xq xk : Vec Ideal S128x64x32 .f32) (b : Fin 128)

theorem scoreVec0_apply (q k : Fin 64) :
    scoreVec0 xq xk (ix3 b q k)
      = Cert.Attn.scores Cert.Attn.scW (fun a t => xq (ix3 b a t)) (fun a t => xk (ix3 b a t)) q k := by
  unfold scoreVec0
  rw [mulf_apply, broadcast_apply, mmQK0]
  simp only [narrowed0_apply]
  rfl

theorem maxVec0_apply (q : Fin 64) :
    maxVec0 xq xk (ix2 b q)
      = Cert.Attn.rowMax Cert.Attn.floor
          (Cert.Attn.scores Cert.Attn.scW (fun a t => xq (ix3 b a t)) (fun a t => xk (ix3 b a t))) q := by
  unfold maxVec0
  rw [maximumf_apply, broadcast_apply, laneMax0]
  simp only [scoreVec0_apply]
  rfl

theorem expVec0_apply (q k : Fin 64) :
    expVec0 xq xk (ix3 b q k)
      = Cert.Attn.weight Cert.Attn.floor
          (Cert.Attn.scores Cert.Attn.scW (fun a t => xq (ix3 b a t)) (fun a t => xk (ix3 b a t))) q k := by
  unfold expVec0
  show Ideal.exp (subf (scoreVec0 xq xk) _ (ix3 b q k)) = _
  rw [subf_apply, colBcast0, scoreVec0_apply, maxVec0_apply]
  rfl

theorem probVec0_apply (q k : Fin 64) :
    probVec0 xq xk (ix3 b q k)
      = Cert.Attn.prob Cert.Attn.floor
          (Cert.Attn.scores Cert.Attn.scW (fun a t => xq (ix3 b a t)) (fun a t => xk (ix3 b a t))) q k := by
  unfold probVec0
  rw [divf_apply, colBcast0, laneSum0, expVec0_apply]
  simp only [expVec0_apply]
  rfl

end

/-- The window kernel's stored block is the attention of each slab of its one loaded block with itself. -/
theorem pay0 (x : Vec Ideal S128x64x32 .f32) :
    Gen.k0_pay1 (F := Ideal) x = Cert.Attn.slabs3 Cert.Attn.scW Cert.Attn.floor x x x := by
  funext i
  obtain ⟨b, q, j, rfl⟩ : ∃ (b : Fin 128) (q : Fin 64) (j : Fin 32), i = ix3 b q j := ⟨i 0, i 1, i 2, eq_ix3 i⟩
  rw [Cert.Attn.slabs3_apply, stored0_eq, mmPV0]
  unfold Cert.Attn.attn
  refine Finset.sum_congr rfl fun k _ => ?_
  rw [narrowed0_apply]
  show probVec0 x x (ix3 b q k) * _ = _
  rw [probVec0_apply]

/-! ## The channel kernel: blocks of 16 slabs, 256 rows, 128 features -/

theorem qk1_lhs0 (i : S16x256x256.Idx) (c : dot_S16x256x128_S16x256x128_S16x256x256_2_2_1_1_0_0.contr.Idx) :
    (dot_S16x256x128_S16x256x128_S16x256x256_2_2_1_1_0_0.lhsIdx i c 0).val = (i 0).val := by
  unfold DotDims.lhsIdx
  rw [dif_pos (show (0 : Fin S16x256x128.rank) ∈ dot_S16x256x128_S16x256x128_S16x256x256_2_2_1_1_0_0.lhsBatch by decide)]
  rfl
theorem qk1_lhs1 (i : S16x256x256.Idx) (c : dot_S16x256x128_S16x256x128_S16x256x256_2_2_1_1_0_0.contr.Idx) :
    (dot_S16x256x128_S16x256x128_S16x256x256_2_2_1_1_0_0.lhsIdx i c 1).val = (i 1).val := by
  unfold DotDims.lhsIdx
  rw [dif_neg (show ¬(1 : Fin S16x256x128.rank) ∈ dot_S16x256x128_S16x256x128_S16x256x256_2_2_1_1_0_0.lhsBatch by decide), dif_pos (show (1 : Fin S16x256x128.rank) ∈ dot_S16x256x128_S16x256x128_S16x256x256_2_2_1_1_0_0.lhsNonContracting by decide)]
  rfl
theorem qk1_lhs2 (i : S16x256x256.Idx) (c : dot_S16x256x128_S16x256x128_S16x256x256_2_2_1_1_0_0.contr.Idx) :
    (dot_S16x256x128_S16x256x128_S16x256x256_2_2_1_1_0_0.lhsIdx i c 2).val = (c ⟨0, by decide⟩).val :=
  dot_S16x256x128_S16x256x128_S16x256x256_2_2_1_1_0_0.lhsIdx_val_of_single rfl i c
theorem qk1_rhs0 (i : S16x256x256.Idx) (c : dot_S16x256x128_S16x256x128_S16x256x256_2_2_1_1_0_0.contr.Idx) :
    (dot_S16x256x128_S16x256x128_S16x256x256_2_2_1_1_0_0.rhsIdx i c 0).val = (i 0).val := by
  unfold DotDims.rhsIdx
  rw [dif_pos (show (0 : Fin S16x256x128.rank) ∈ dot_S16x256x128_S16x256x128_S16x256x256_2_2_1_1_0_0.rhsBatch by decide)]
  rfl
theorem qk1_rhs1 (i : S16x256x256.Idx) (c : dot_S16x256x128_S16x256x128_S16x256x256_2_2_1_1_0_0.contr.Idx) :
    (dot_S16x256x128_S16x256x128_S16x256x256_2_2_1_1_0_0.rhsIdx i c 1).val = (i 2).val := by
  unfold DotDims.rhsIdx
  rw [dif_neg (show ¬(1 : Fin S16x256x128.rank) ∈ dot_S16x256x128_S16x256x128_S16x256x256_2_2_1_1_0_0.rhsBatch by decide), dif_pos (show (1 : Fin S16x256x128.rank) ∈ dot_S16x256x128_S16x256x128_S16x256x256_2_2_1_1_0_0.rhsNonContracting by decide)]
  rfl
theorem qk1_rhs2 (i : S16x256x256.Idx) (c : dot_S16x256x128_S16x256x128_S16x256x256_2_2_1_1_0_0.contr.Idx) :
    (dot_S16x256x128_S16x256x128_S16x256x256_2_2_1_1_0_0.rhsIdx i c 2).val = (c ⟨0, by decide⟩).val :=
  dot_S16x256x128_S16x256x128_S16x256x256_2_2_1_1_0_0.rhsIdx_val_of_single rfl i c

/-- Scores: the product of a block with the transpose of another, slab by slab, is the sum over the 128 features. -/
theorem mmQK1 (l r : FVec Ideal S16x256x128 .bf16) (b : Fin 16) (q k : Fin 256) :
    matmul dot_S16x256x128_S16x256x128_S16x256x256_2_2_1_1_0_0 none l r (constant S16x256x256 .f32 0x00000000#32) (ix3 b q k)
      = ∑ t : Fin 128, l (ix3 b q t) * r (ix3 b k t) := by
  simp only [matmul]
  rw [Ideal.matmul_constant_zero_apply, ← Equiv.sum_comp (contrEquiv1 dot_S16x256x128_S16x256x128_S16x256x256_2_2_1_1_0_0 128 rfl rfl).symm]
  refine Finset.sum_congr rfl fun t _ => ?_
  have hk := contrEquiv1_symm_val dot_S16x256x128_S16x256x128_S16x256x256_2_2_1_1_0_0 128 rfl rfl t
  have el : dot_S16x256x128_S16x256x128_S16x256x256_2_2_1_1_0_0.lhsIdx (ix3 b q k) ((contrEquiv1 dot_S16x256x128_S16x256x128_S16x256x256_2_2_1_1_0_0 128 rfl rfl).symm t) = ix3 b q t :=
    funext fun a => Fin.ext (by
      match a with
      | ⟨0, _⟩ => exact qk1_lhs0 _ _
      | ⟨1, _⟩ => exact qk1_lhs1 _ _
      | ⟨2, _⟩ => exact (qk1_lhs2 _ _).trans hk)
  have er : dot_S16x256x128_S16x256x128_S16x256x256_2_2_1_1_0_0.rhsIdx (ix3 b q k) ((contrEquiv1 dot_S16x256x128_S16x256x128_S16x256x256_2_2_1_1_0_0 128 rfl rfl).symm t) = ix3 b k t :=
    funext fun a => Fin.ext (by
      match a with
      | ⟨0, _⟩ => exact qk1_rhs0 _ _
      | ⟨1, _⟩ => exact qk1_rhs1 _ _
      | ⟨2, _⟩ => exact (qk1_rhs2 _ _).trans hk)
  rw [el, er]

theorem pv1_lhs0 (i : S16x256x128.Idx) (c : dot_S16x256x256_S16x256x128_S16x256x128_2_1_1_2_0_0.contr.Idx) :
    (dot_S16x256x256_S16x256x128_S16x256x128_2_1_1_2_0_0.lhsIdx i c 0).val = (i 0).val := by
  unfold DotDims.lhsIdx
  rw [dif_pos (show (0 : Fin S16x256x256.rank) ∈ dot_S16x256x256_S16x256x128_S16x256x128_2_1_1_2_0_0.lhsBatch by decide)]
  rfl
theorem pv1_lhs1 (i : S16x256x128.Idx) (c : dot_S16x256x256_S16x256x128_S16x256x128_2_1_1_2_0_0.contr.Idx) :
    (dot_S16x256x256_S16x256x128_S16x256x128_2_1_1_2_0_0.lhsIdx i c 1).val = (i 1).val := by
  unfold DotDims.lhsIdx
  rw [dif_neg (show ¬(1 : Fin S16x256x256.rank) ∈ dot_S16x256x256_S16x256x128_S16x256x128_2_1_1_2_0_0.lhsBatch by decide), dif_pos (show (1 : Fin S16x256x256.rank) ∈ dot_S16x256x256_S16x256x128_S16x256x128_2_1_1_2_0_0.lhsNonContracting by decide)]
  rfl
theorem pv1_lhs2 (i : S16x256x128.Idx) (c : dot_S16x256x256_S16x256x128_S16x256x128_2_1_1_2_0_0.contr.Idx) :
    (dot_S16x256x256_S16x256x128_S16x256x128_2_1_1_2_0_0.lhsIdx i c 2).val = (c ⟨0, by decide⟩).val :=
  dot_S16x256x256_S16x256x128_S16x256x128_2_1_1_2_0_0.lhsIdx_val_of_single rfl i c
theorem pv1_rhs0 (i : S16x256x128.Idx) (c : dot_S16x256x256_S16x256x128_S16x256x128_2_1_1_2_0_0.contr.Idx) :
    (dot_S16x256x256_S16x256x128_S16x256x128_2_1_1_2_0_0.rhsIdx i c 0).val = (i 0).val := by
  unfold DotDims.rhsIdx
  rw [dif_pos (show (0 : Fin S16x256x128.rank) ∈ dot_S16x256x256_S16x256x128_S16x256x128_2_1_1_2_0_0.rhsBatch by decide)]
  rfl
theorem pv1_rhs1 (i : S16x256x128.Idx) (c : dot_S16x256x256_S16x256x128_S16x256x128_2_1_1_2_0_0.contr.Idx) :
    (dot_S16x256x256_S16x256x128_S16x256x128_2_1_1_2_0_0.rhsIdx i c 1).val = (c ⟨0, by decide⟩).val :=
  dot_S16x256x256_S16x256x128_S16x256x128_2_1_1_2_0_0.rhsIdx_val_of_single rfl i c
theorem pv1_rhs2 (i : S16x256x128.Idx) (c : dot_S16x256x256_S16x256x128_S16x256x128_2_1_1_2_0_0.contr.Idx) :
    (dot_S16x256x256_S16x256x128_S16x256x128_2_1_1_2_0_0.rhsIdx i c 2).val = (i 2).val := by
  unfold DotDims.rhsIdx
  rw [dif_neg (show ¬(2 : Fin S16x256x128.rank) ∈ dot_S16x256x256_S16x256x128_S16x256x128_2_1_1_2_0_0.rhsBatch by decide), dif_pos (show (2 : Fin S16x256x128.rank) ∈ dot_S16x256x256_S16x256x128_S16x256x128_2_1_1_2_0_0.rhsNonContracting by decide)]
  rfl

/-- Result: the product of the weights with the value block, slab by slab, is the sum over the 256 key rows. -/
theorem mmPV1 (p : FVec Ideal S16x256x256 .bf16) (r : FVec Ideal S16x256x128 .bf16) (b : Fin 16) (q : Fin 256) (j : Fin 128) :
    matmul dot_S16x256x256_S16x256x128_S16x256x128_2_1_1_2_0_0 none p r (constant S16x256x128 .f32 0x00000000#32) (ix3 b q j)
      = ∑ k : Fin 256, p (ix3 b q k) * r (ix3 b k j) := by
  simp only [matmul]
  rw [Ideal.matmul_constant_zero_apply, ← Equiv.sum_comp (contrEquiv1 dot_S16x256x256_S16x256x128_S16x256x128_2_1_1_2_0_0 256 rfl rfl).symm]
  refine Finset.sum_congr rfl fun k _ => ?_
  have hk := contrEquiv1_symm_val dot_S16x256x256_S16x256x128_S16x256x128_2_1_1_2_0_0 256 rfl rfl k
  have el : dot_S16x256x256_S16x256x128_S16x256x128_2_1_1_2_0_0.lhsIdx (ix3 b q j) ((contrEquiv1 dot_S16x256x256_S16x256x128_S16x256x128_2_1_1_2_0_0 256 rfl rfl).symm k) = ix3 b q k :=
    funext fun a => Fin.ext (by
      match a with
      | ⟨0, _⟩ => exact pv1_lhs0 _ _
      | ⟨1, _⟩ => exact pv1_lhs1 _ _
      | ⟨2, _⟩ => exact (pv1_lhs2 _ _).trans hk)
  have er : dot_S16x256x256_S16x256x128_S16x256x128_2_1_1_2_0_0.rhsIdx (ix3 b q j) ((contrEquiv1 dot_S16x256x256_S16x256x128_S16x256x128_2_1_1_2_0_0 256 rfl rfl).symm k) = ix3 b k j :=
    funext fun a => Fin.ext (by
      match a with
      | ⟨0, _⟩ => exact pv1_rhs0 _ _
      | ⟨1, _⟩ => exact (pv1_rhs1 _ _).trans hk
      | ⟨2, _⟩ => exact pv1_rhs2 _ _)
  rw [el, er]

/-- The lane maximum of a row, started at the floor word. -/
theorem laneMax1 (v : FVec Ideal S16x256x256 .f32) (b : Fin 16) (q : Fin 256) :
    multiReduction .maximumf [2] S16x256 v 0xFF800000#32 reduces_S16x256x256_S16x256 (.inl rfl) rfl (ix2 b q)
      = (Finset.univ : Finset (Fin 256)).fold max (Ideal.ofBits .f32 0xFF800000#32) (fun k => v (ix3 b q k)) := by
  refine (Ideal.multiReduction_maximumf_single v 0xFF800000#32 reduces_S16x256x256_S16x256 (.inl rfl) rfl (ix2 b q)).trans ?_
  refine congrArg (fun f => Finset.fold max (Ideal.ofBits .f32 0xFF800000#32) f (Finset.univ : Finset (Fin 256))) ?_
  funext k
  exact congrArg v (funext fun a => Fin.ext (by match a with | ⟨0, _⟩ => rfl | ⟨1, _⟩ => rfl | ⟨2, _⟩ => rfl))

/-- The lane sum of a row. -/
theorem laneSum1 (v : FVec Ideal S16x256x256 .f32) (b : Fin 16) (q : Fin 256) :
    multiReduction .add [2] S16x256 v 0x00000000#32 reduces_S16x256x256_S16x256 (.inl rfl) rfl (ix2 b q)
      = ∑ k : Fin 256, v (ix3 b q k) := by
  refine (Ideal.multiReduction_add_single v 0x00000000#32 reduces_S16x256x256_S16x256 (.inl rfl) rfl (ix2 b q)).trans ?_
  refine Finset.sum_congr rfl fun k _ => ?_
  exact congrArg v (funext fun a => Fin.ext (by match a with | ⟨0, _⟩ => rfl | ⟨1, _⟩ => rfl | ⟨2, _⟩ => rfl))

/-- A per-row value kept as a unit last axis and repeated along it reads the row's value everywhere. -/
theorem colBcast1 (u : FVec Ideal S16x256 .f32) (b : Fin 16) (q k : Fin 256) :
    broadcastTo S16x256x256 (shapeCast S16x256x1 u shapeCasts_S16x256_S16x256x1) broadcasts_S16x256x1_S16x256x256 (ix3 b q k)
      = u (ix2 b q) := by
  refine (broadcastTo_apply _ broadcasts_S16x256x1_S16x256x256 (ix3 b q k) (ix3 b q (0 : Fin 1)) fun a => ?_).trans ?_
  · match a with
    | ⟨0, _⟩ => show b.val = if (16 : Nat) = 1 then 0 else b.val; rw [if_neg (by decide)]
    | ⟨1, _⟩ => show q.val = if (256 : Nat) = 1 then 0 else q.val; rw [if_neg (by decide)]
    | ⟨2, _⟩ => show (0 : Nat) = if (1 : Nat) = 1 then 0 else k.val; rw [if_pos rfl]
  · refine shapeCast_apply u shapeCasts_S16x256_S16x256x1 (ix3 b q (0 : Fin 1)) (ix2 b q) ?_
    rw [Shape.rowMajor_val_two, Shape.rowMajor_val_three]
    show b.val * 256 + q.val = (b.val * 256 + q.val) * 1 + 0
    omega

/-- A loaded block after the format change the body applies to it: the same numbers. -/
def narrowed1 (x : Vec Ideal S16x256x128 .f32) : FVec Ideal S16x256x128 .bf16 :=
  truncf .bf16 (shapeCast S16x256x128 x shapeCasts_S16x256x128_S16x256x128) bitsLt_bf16_f32

theorem narrowed1_apply (x : Vec Ideal S16x256x128 .f32) (i : S16x256x128.Idx) : narrowed1 x i = x i := by
  unfold narrowed1
  rw [shapeCast_self]
  rfl

/-- The scaled scores of the whole block. -/
def scoreVec1 (xq xk : Vec Ideal S16x256x128 .f32) : FVec Ideal S16x256x256 .f32 :=
  mulf (matmul dot_S16x256x128_S16x256x128_S16x256x256_2_2_1_1_0_0 none (narrowed1 xq) (narrowed1 xk) (constant S16x256x256 .f32 0x00000000#32))
    (broadcast S16x256x256 (Scalar.ofBits .f32 0x3DB504F3#32))

/-- The row maxima of the whole block. -/
def maxVec1 (xq xk : Vec Ideal S16x256x128 .f32) : FVec Ideal S16x256 .f32 :=
  maximumf (broadcast S16x256 (Scalar.ofBits .f32 0xFF800000#32))
    (multiReduction .maximumf [2] S16x256 (scoreVec1 xq xk) 0xFF800000#32 reduces_S16x256x256_S16x256 (.inl rfl) rfl)

/-- The unnormalised weights of the whole block. -/
def expVec1 (xq xk : Vec Ideal S16x256x128 .f32) : FVec Ideal S16x256x256 .f32 :=
  exp (subf (scoreVec1 xq xk)
    (broadcastTo S16x256x256 (shapeCast S16x256x1 (maxVec1 xq xk) shapeCasts_S16x256_S16x256x1) broadcasts_S16x256x1_S16x256x256))

/-- The normalised weights of the whole block. -/
def probVec1 (xq xk : Vec Ideal S16x256x128 .f32) : FVec Ideal S16x256x256 .f32 :=
  divf (expVec1 xq xk)
    (broadcastTo S16x256x256 (shapeCast S16x256x1
      (multiReduction .add [2] S16x256 (expVec1 xq xk) 0x00000000#32 reduces_S16x256x256_S16x256 (.inl rfl) rfl)
      shapeCasts_S16x256_S16x256x1) broadcasts_S16x256x1_S16x256x256)

/-- The stored value is the weights times the value block. -/
theorem stored1_eq (x0 x1 x2 : Vec Ideal S16x256x128 .f32) :
    Gen.k1_pay1 (F := Ideal) x0 x1 x2
      = matmul dot_S16x256x256_S16x256x128_S16x256x128_2_1_1_2_0_0 none (truncf .bf16 (probVec1 x0 x1) bitsLt_bf16_f32) (narrowed1 x2)
          (constant S16x256x128 .f32 0x00000000#32) := rfl

section
variable (xq xk : Vec Ideal S16x256x128 .f32) (b : Fin 16)

theorem scoreVec1_apply (q k : Fin 256) :
    scoreVec1 xq xk (ix3 b q k)
      = Cert.Attn.scores Cert.Attn.scC (fun a t => xq (ix3 b a t)) (fun a t => xk (ix3 b a t)) q k := by
  unfold scoreVec1
  rw [mulf_apply, broadcast_apply, mmQK1]
  simp only [narrowed1_apply]
  rfl

theorem maxVec1_apply (q : Fin 256) :
    maxVec1 xq xk (ix2 b q)
      = Cert.Attn.rowMax Cert.Attn.floor
          (Cert.Attn.scores Cert.Attn.scC (fun a t => xq (ix3 b a t)) (fun a t => xk (ix3 b a t))) q := by
  unfold maxVec1
  rw [maximumf_apply, broadcast_apply, laneMax1]
  simp only [scoreVec1_apply]
  rfl

theorem expVec1_apply (q k : Fin 256) :
    expVec1 xq xk (ix3 b q k)
      = Cert.Attn.weight Cert.Attn.floor
          (Cert.Attn.scores Cert.Attn.scC (fun a t => xq (ix3 b a t)) (fun a t => xk (ix3 b a t))) q k := by
  unfold expVec1
  show Ideal.exp (subf (scoreVec1 xq xk) _ (ix3 b q k)) = _
  rw [subf_apply, colBcast1, scoreVec1_apply, maxVec1_apply]
  rfl

theorem probVec1_apply (q k : Fin 256) :
    probVec1 xq xk (ix3 b q k)
      = Cert.Attn.prob Cert.Attn.floor
          (Cert.Attn.scores Cert.Attn.scC (fun a t => xq (ix3 b a t)) (fun a t => xk (ix3 b a t))) q k := by
  unfold probVec1
  rw [divf_apply, colBcast1, laneSum1, expVec1_apply]
  simp only [expVec1_apply]
  rfl

end

/-- The channel kernel's stored block is the attention of each slab of its query block against the same slab of its
    key and value blocks. -/
theorem pay1 (x0 x1 x2 : Vec Ideal S16x256x128 .f32) :
    Gen.k1_pay1 (F := Ideal) x0 x1 x2 = Cert.Attn.slabs3 Cert.Attn.scC Cert.Attn.floor x0 x1 x2 := by
  funext i
  obtain ⟨b, q, j, rfl⟩ : ∃ (b : Fin 16) (q : Fin 256) (j : Fin 128), i = ix3 b q j := ⟨i 0, i 1, i 2, eq_ix3 i⟩
  rw [Cert.Attn.slabs3_apply, stored1_eq, mmPV1]
  unfold Cert.Attn.attn
  refine Finset.sum_congr rfl fun k _ => ?_
  rw [narrowed1_apply]
  show probVec1 x0 x1 (ix3 b q k) * _ = _
  rw [probVec1_apply]

end Cert.KernelIdeal.Pay

end
-- ==== Proof.KArr.lean ====
/-
  The kernel side, from blocks to whole arrays. Each of the two kernels runs over a one-dimensional grid; at grid point
  `t` it loads block `t` of each input array (a run of consecutive slabs, whole along the row and feature axes), stores
  the slab-by-slab attention of what it loaded, and the pipeline writes that block back as block `t` of the output
  array. Attention of a slab reads only the operands' slabs with the same number, so the attention of the slabs of block
  `t` is block `t` of the slab-by-slab attention of the whole arrays; the blocks of the grid points tile the output
  array, so after the run the output array IS the slab-by-slab attention of the input arrays.
-/
import proofs.«128985_j42305427866177_2_alg».proof.Proof.Attn
import proofs.«128985_j42305427866177_2_alg».proof.Proof.KPay
import proofs.«128985_j42305427866177_2_alg».proof.Proof.Gen.KernelIdeal.Frame
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat)

/-- The zero offsets of a whole-block load or store. -/
theorem hz : (![0, 0, 0] : Fin 3 → Nat) = fun _ => 0 := funext fun a => by fin_cases a <;> rfl

/-- The block index maps of the window kernel, decided over its 64 grid points: the input block and the output block
    are the same block, block `t` along the slab axis and the whole of the other two axes. -/
theorem index0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The block index maps of the channel kernel, decided over its 32 grid points: the three input blocks and the output
    block are the same block, block `t` along the slab axis and the whole of the other two axes. -/
theorem index1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-! ## The window kernel: blocks of 128 slabs -/

/-- Element `y` of the `n`-th block of 128 slabs, as an index of the whole array of 8192 slabs: slab `n·128 + y 0`,
    the same row and feature. -/
def blockIx0 (n : Nat) (hn : n < 64) (y : S128x64x32.Idx) : S8192x64x32.Idx :=
  ix3 (n0 := 8192) (n1 := 64) (n2 := 32)
    ⟨n * 128 + (y 0).val, by have h : (y 0).val < 128 := (y 0).isLt; omega⟩ (y 1) (y 2)

/-- The attention of the slabs of one block of the arrays is the block of the attention of the arrays' slabs: a slab of
    the result only reads the operands' slabs with the same number. -/
theorem slabs3_block0 (sc ninf : EReal) (n : Nat) (hn : n < 64) (Q K W : S8192x64x32.Idx → EReal) :
    Cert.Attn.slabs3 sc ninf (fun y : S128x64x32.Idx => Q (blockIx0 n hn y)) (fun y : S128x64x32.Idx => K (blockIx0 n hn y))
        (fun y : S128x64x32.Idx => W (blockIx0 n hn y))
      = fun y : S128x64x32.Idx => Cert.Attn.slabs3 sc ninf Q K W (blockIx0 n hn y) := by
  funext y; rfl

/-! ## The channel kernel: blocks of 16 slabs -/

/-- Element `y` of the `n`-th block of 16 slabs, as an index of the whole array of 512 slabs: slab `n·16 + y 0`,
    the same row and feature. -/
def blockIx1 (n : Nat) (hn : n < 32) (y : S16x256x128.Idx) : S512x256x128.Idx :=
  ix3 (n0 := 512) (n1 := 256) (n2 := 128)
    ⟨n * 16 + (y 0).val, by have h : (y 0).val < 16 := (y 0).isLt; omega⟩ (y 1) (y 2)

/-- The attention of the slabs of one block of the arrays is the block of the attention of the arrays' slabs: a slab of
    the result only reads the operands' slabs with the same number. -/
theorem slabs3_block1 (sc ninf : EReal) (n : Nat) (hn : n < 32) (Q K W : S512x256x128.Idx → EReal) :
    Cert.Attn.slabs3 sc ninf (fun y : S16x256x128.Idx => Q (blockIx1 n hn y)) (fun y : S16x256x128.Idx => K (blockIx1 n hn y))
        (fun y : S16x256x128.Idx => W (blockIx1 n hn y))
      = fun y : S16x256x128.Idx => Cert.Attn.slabs3 sc ninf Q K W (blockIx1 n hn y) := by
  funext y; rfl

variable [Cert.KernelIdeal.Facts]
variable (V : (c : Dev nD) → (b : Ref sig .tc) → Buf (Elt Ideal) ((c : Thread nD τ).loc b))

/-- The input window's block at point `t` is block `t` of its array. -/
theorem emb0_0 (t : Fin cfg0.N) (y : S128x64x32.Idx) (ht : t.val < 64) :
    ((cfg0.win 0).blk t).view.emb y = blockIx0 t.val ht y := by
  obtain ⟨e0, e1, e2, -, -, -⟩ := index0 t
  funext a; apply Fin.ext
  match a with
  | ⟨0, _⟩ => show win0_0.index t (0 : Fin 3) * 128 + 1 * (y 0).val = t.val * 128 + (y 0).val; rw [e0]; omega
  | ⟨1, _⟩ => show win0_0.index t (1 : Fin 3) * 64 + 1 * (y 1).val = (y 1).val; rw [e1]; omega
  | ⟨2, _⟩ => show win0_0.index t (2 : Fin 3) * 32 + 1 * (y 2).val = (y 2).val; rw [e2]; omega

/-- The output window's block at point `t` is block `t` of its array. -/
theorem emb0_1 (t : Fin cfg0.N) (y : S128x64x32.Idx) (ht : t.val < 64) :
    ((cfg0.win 1).blk t).view.emb y = blockIx0 t.val ht y := by
  obtain ⟨-, -, -, e0, e1, e2⟩ := index0 t
  funext a; apply Fin.ext
  match a with
  | ⟨0, _⟩ => show win0_1.index t (0 : Fin 3) * 128 + 1 * (y 0).val = t.val * 128 + (y 0).val; rw [e0]; omega
  | ⟨1, _⟩ => show win0_1.index t (1 : Fin 3) * 64 + 1 * (y 1).val = (y 1).val; rw [e1]; omega
  | ⟨2, _⟩ => show win0_1.index t (2 : Fin 3) * 32 + 1 * (y 2).val = (y 2).val; rw [e2]; omega

/-- The input block the window kernel loads at point `t`, element by element. -/
theorem iblk0_eq (c : Dev nD) (t : Fin cfg0.N) (ht : t.val < 64) :
    iblk0 (F := Ideal) V c 0 t = fun y : S128x64x32.Idx => V c main_v3 (blockIx0 t.val ht y) := by
  funext y
  show V c main_v3 (((cfg0.win 0).blk t).view.emb y) = _
  rw [emb0_0 t y ht]

/-- Block `t` of any contents of the output array, element by element. -/
theorem read0_1 (t : Fin cfg0.N) (ht : t.val < 64) (G : S8192x64x32.Idx → EReal) :
    ((cfg0.win 1).blk t).view.read (Elt Ideal) G = fun y : S128x64x32.Idx => G (blockIx0 t.val ht y) := by
  funext y
  show G (((cfg0.win 1).blk t).view.emb y) = _
  rw [emb0_1 t y ht]

/-- WHAT POINT `t` WRITES BACK is block `t` of the slab-by-slab attention of the input array with itself. -/
theorem flushed0 (c : Dev nD) (t : Fin cfg0.N) :
    (dat0 (F := Ideal) V c).flushed 1 t
      = ((cfg0.win 1).blk t).view.read (Elt Ideal)
          (Cert.Attn.slabs3 Cert.Attn.scW Cert.Attn.floor (V c main_v3) (V c main_v3) (V c main_v3)) := by
  have ht : t.val < 64 := t.isLt
  show (cfg0.win 1).cut (grid0.coords t) ((dat0 (F := Ideal) V c).after 1 t) = _
  rw [after0_1]
  unfold out0_1
  rw [View.canon_unit_zero hz]
  simp only [View.ld_unit_zero (S := S128x64x32) hz]
  rw [Cert.KernelIdeal.Pay.pay0, iblk0_eq V c t ht, read0_1 t ht]
  exact slabs3_block0 _ _ t.val ht _ _ _

/-- An index of the output array is in point `t`'s block iff each coordinate is in the block's range on its axis. -/
theorem mem_blk0 (t : Fin cfg0.N) (i : S8192x64x32.Idx) :
    i ∈ ((cfg0.win 1).blk t).view.set ↔ ∀ a : Fin 3, win0_1.index t a * S128x64x32.size a ≤ (i a).val ∧ (i a).val < win0_1.index t a * S128x64x32.size a + S128x64x32.size a := by
  show i ∈ ((View.whole main_v4).slice (win0_1.rect t)).set ↔ _
  rw [View.set_slice_whole, Rect.mem_set_unit]
  exact Iff.rfl

/-- Every slab of the output array is in the block of some grid point, which writes it back: slab `s` in that of
    point `s / 128`. -/
theorem cover0 (i : S8192x64x32.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 32 := (i 2).isLt
  have hN : cfg0.N = 64 := N_0
  let t : Fin cfg0.N := ⟨(i 0).val / 128, by rw [hN]; omega⟩
  have htv : t.val = (i 0).val / 128 := rfl
  obtain ⟨-, -, -, e0, e1, e2⟩ := index0 t
  refine ⟨t, flush0_1 t, ?_⟩
  rw [mem_blk0]
  intro a
  match a with
  | ⟨0, _⟩ => show win0_1.index t (0 : Fin 3) * 128 ≤ (i 0).val ∧ (i 0).val < win0_1.index t (0 : Fin 3) * 128 + 128; rw [e0, htv]; omega
  | ⟨1, _⟩ => show win0_1.index t (1 : Fin 3) * 64 ≤ (i 1).val ∧ (i 1).val < win0_1.index t (1 : Fin 3) * 64 + 64; rw [e1]; omega
  | ⟨2, _⟩ => show win0_1.index t (2 : Fin 3) * 32 ≤ (i 2).val ∧ (i 2).val < win0_1.index t (2 : Fin 3) * 32 + 32; rw [e2]; omega

/-- THE WINDOW KERNEL'S OUTPUT ARRAY after the run: the slab-by-slab attention of its input array with itself. -/
theorem arr0 (c : Dev nD) :
    (dat0 (F := Ideal) V c).arrAt 1 cfg0.N = Cert.Attn.slabs3 Cert.Attn.scW Cert.Attn.floor (V c main_v3) (V c main_v3) (V c main_v3) :=
  (dat0 (F := Ideal) V c).arrAt_eq_of_cover 1 _ (fun t _ => flushed0 V c t) cover0

/-- The query window's block at point `t` is block `t` of its array. -/
theorem emb1_0 (t : Fin cfg1.N) (y : S16x256x128.Idx) (ht : t.val < 32) :
    ((cfg1.win 0).blk t).view.emb y = blockIx1 t.val ht y := by
  obtain ⟨e0, e1, e2, -⟩ := index1 t
  funext a; apply Fin.ext
  match a with
  | ⟨0, _⟩ => show win1_0.index t (0 : Fin 3) * 16 + 1 * (y 0).val = t.val * 16 + (y 0).val; rw [e0]; omega
  | ⟨1, _⟩ => show win1_0.index t (1 : Fin 3) * 256 + 1 * (y 1).val = (y 1).val; rw [e1]; omega
  | ⟨2, _⟩ => show win1_0.index t (2 : Fin 3) * 128 + 1 * (y 2).val = (y 2).val; rw [e2]; omega

/-- The key window's block at point `t` is block `t` of its array. -/
theorem emb1_1 (t : Fin cfg1.N) (y : S16x256x128.Idx) (ht : t.val < 32) :
    ((cfg1.win 1).blk t).view.emb y = blockIx1 t.val ht y := by
  obtain ⟨-, -, -, e0, e1, e2, -⟩ := index1 t
  funext a; apply Fin.ext
  match a with
  | ⟨0, _⟩ => show win1_1.index t (0 : Fin 3) * 16 + 1 * (y 0).val = t.val * 16 + (y 0).val; rw [e0]; omega
  | ⟨1, _⟩ => show win1_1.index t (1 : Fin 3) * 256 + 1 * (y 1).val = (y 1).val; rw [e1]; omega
  | ⟨2, _⟩ => show win1_1.index t (2 : Fin 3) * 128 + 1 * (y 2).val = (y 2).val; rw [e2]; omega

/-- The value window's block at point `t` is block `t` of its array. -/
theorem emb1_2 (t : Fin cfg1.N) (y : S16x256x128.Idx) (ht : t.val < 32) :
    ((cfg1.win 2).blk t).view.emb y = blockIx1 t.val ht y := by
  obtain ⟨-, -, -, -, -, -, e0, e1, e2, -⟩ := index1 t
  funext a; apply Fin.ext
  match a with
  | ⟨0, _⟩ => show win1_2.index t (0 : Fin 3) * 16 + 1 * (y 0).val = t.val * 16 + (y 0).val; rw [e0]; omega
  | ⟨1, _⟩ => show win1_2.index t (1 : Fin 3) * 256 + 1 * (y 1).val = (y 1).val; rw [e1]; omega
  | ⟨2, _⟩ => show win1_2.index t (2 : Fin 3) * 128 + 1 * (y 2).val = (y 2).val; rw [e2]; omega

/-- The output window's block at point `t` is block `t` of its array. -/
theorem emb1_3 (t : Fin cfg1.N) (y : S16x256x128.Idx) (ht : t.val < 32) :
    ((cfg1.win 3).blk t).view.emb y = blockIx1 t.val ht y := by
  obtain ⟨-, -, -, -, -, -, -, -, -, e0, e1, e2⟩ := index1 t
  funext a; apply Fin.ext
  match a with
  | ⟨0, _⟩ => show win1_3.index t (0 : Fin 3) * 16 + 1 * (y 0).val = t.val * 16 + (y 0).val; rw [e0]; omega
  | ⟨1, _⟩ => show win1_3.index t (1 : Fin 3) * 256 + 1 * (y 1).val = (y 1).val; rw [e1]; omega
  | ⟨2, _⟩ => show win1_3.index t (2 : Fin 3) * 128 + 1 * (y 2).val = (y 2).val; rw [e2]; omega

/-- The query block the channel kernel loads at point `t`, element by element. -/
theorem iblk1_0_eq (c : Dev nD) (t : Fin cfg1.N) (ht : t.val < 32) :
    iblk1 (F := Ideal) V c 0 t = fun y : S16x256x128.Idx => V c main_v10 (blockIx1 t.val ht y) := by
  funext y
  show V c main_v10 (((cfg1.win 0).blk t).view.emb y) = _
  rw [emb1_0 t y ht]

/-- The key block it loads at point `t`, element by element. -/
theorem iblk1_1_eq (c : Dev nD) (t : Fin cfg1.N) (ht : t.val < 32) :
    iblk1 (F := Ideal) V c 1 t = fun y : S16x256x128.Idx => V c main_v12 (blockIx1 t.val ht y) := by
  funext y
  show V c main_v12 (((cfg1.win 1).blk t).view.emb y) = _
  rw [emb1_1 t y ht]

/-- The value block it loads at point `t`, element by element. -/
theorem iblk1_2_eq (c : Dev nD) (t : Fin cfg1.N) (ht : t.val < 32) :
    iblk1 (F := Ideal) V c 2 t = fun y : S16x256x128.Idx => V c main_v14 (blockIx1 t.val ht y) := by
  funext y
  show V c main_v14 (((cfg1.win 2).blk t).view.emb y) = _
  rw [emb1_2 t y ht]

/-- Block `t` of any contents of the output array, element by element. -/
theorem read1_3 (t : Fin cfg1.N) (ht : t.val < 32) (G : S512x256x128.Idx → EReal) :
    ((cfg1.win 3).blk t).view.read (Elt Ideal) G = fun y : S16x256x128.Idx => G (blockIx1 t.val ht y) := by
  funext y
  show G (((cfg1.win 3).blk t).view.emb y) = _
  rw [emb1_3 t y ht]

/-- WHAT POINT `t` WRITES BACK is block `t` of the slab-by-slab attention of the query array against the key and
    value arrays. -/
theorem flushed1 (c : Dev nD) (t : Fin cfg1.N) :
    (dat1 (F := Ideal) V c).flushed 3 t
      = ((cfg1.win 3).blk t).view.read (Elt Ideal)
          (Cert.Attn.slabs3 Cert.Attn.scC Cert.Attn.floor (V c main_v10) (V c main_v12) (V c main_v14)) := by
  have ht : t.val < 32 := t.isLt
  show (cfg1.win 3).cut (grid1.coords t) ((dat1 (F := Ideal) V c).after 3 t) = _
  rw [after1_3]
  unfold out1_3
  rw [View.canon_unit_zero hz]
  simp only [View.ld_unit_zero (S := S16x256x128) hz]
  rw [Cert.KernelIdeal.Pay.pay1, iblk1_0_eq V c t ht, iblk1_1_eq V c t ht, iblk1_2_eq V c t ht, read1_3 t ht]
  exact slabs3_block1 _ _ t.val ht _ _ _

/-- An index of the output array is in point `t`'s block iff each coordinate is in the block's range on its axis. -/
theorem mem_blk1 (t : Fin cfg1.N) (i : S512x256x128.Idx) :
    i ∈ ((cfg1.win 3).blk t).view.set ↔ ∀ a : Fin 3, win1_3.index t a * S16x256x128.size a ≤ (i a).val ∧ (i a).val < win1_3.index t a * S16x256x128.size a + S16x256x128.size a := by
  show i ∈ ((View.whole main_v15).slice (win1_3.rect t)).set ↔ _
  rw [View.set_slice_whole, Rect.mem_set_unit]
  exact Iff.rfl

/-- Every slab of the output array is in the block of some grid point, which writes it back: slab `s` in that of
    point `s / 16`. -/
theorem cover1 (i : S512x256x128.Idx) :
    ∃ t : Fin cfg1.N, (cfg1.win 3).flush t = true ∧ i ∈ ((cfg1.win 3).blk t).view.set := by
  have hi0 : (i 0).val < 512 := (i 0).isLt
  have hi1 : (i 1).val < 256 := (i 1).isLt
  have hi2 : (i 2).val < 128 := (i 2).isLt
  have hN : cfg1.N = 32 := N_1
  let t : Fin cfg1.N := ⟨(i 0).val / 16, by rw [hN]; omega⟩
  have htv : t.val = (i 0).val / 16 := rfl
  obtain ⟨-, -, -, -, -, -, -, -, -, e0, e1, e2⟩ := index1 t
  refine ⟨t, flush1_3 t, ?_⟩
  rw [mem_blk1]
  intro a
  match a with
  | ⟨0, _⟩ => show win1_3.index t (0 : Fin 3) * 16 ≤ (i 0).val ∧ (i 0).val < win1_3.index t (0 : Fin 3) * 16 + 16; rw [e0, htv]; omega
  | ⟨1, _⟩ => show win1_3.index t (1 : Fin 3) * 256 ≤ (i 1).val ∧ (i 1).val < win1_3.index t (1 : Fin 3) * 256 + 256; rw [e1]; omega
  | ⟨2, _⟩ => show win1_3.index t (2 : Fin 3) * 128 ≤ (i 2).val ∧ (i 2).val < win1_3.index t (2 : Fin 3) * 128 + 128; rw [e2]; omega

/-- THE CHANNEL KERNEL'S OUTPUT ARRAY after the run: the slab-by-slab attention of its query array against its key and
    value arrays. -/
theorem arr1 (c : Dev nD) :
    (dat1 (F := Ideal) V c).arrAt 3 cfg1.N = Cert.Attn.slabs3 Cert.Attn.scC Cert.Attn.floor (V c main_v10) (V c main_v12) (V c main_v14) :=
  (dat1 (F := Ideal) V c).arrAt_eq_of_cover 3 _ (fun t _ => flushed1 V c t) cover1

end Cert.KernelIdeal.Arr

end
-- ==== Proof.RefRead.lean ====
/-
  The reference program, read slab by slab: its window attention and its channel attention are each the softmax
  attention of Attn.lean on every slab of a rank-4 array.

  The host program spells the softmax out as separate array operations: the scaled inner products, their row maximum
  (a fold started at the floor, then a maximum with the floor again), the exponential of the difference, the row sum
  of those, the quotient, and the final product with the value rows. Reading each operation at an index
  (n, h, q, k) and following the broadcasts back to (n, h, q) gives exactly scores, rowMax, weight, prob and attn.
-/
import proofs.«128985_j42305427866177_2_alg».proof.Proof.Attn
import proofs.«128985_j42305427866177_2_alg».proof.Proof.Gen.ReferenceIdeal.Read

noncomputable section

namespace Cert.RefAttn

open Idealize.ShloMosaic Idealize.ShloMosaic.ValueIdx Cert.ReferenceIdeal Cert.ReferenceIdeal.Read

variable [Cert.ReferenceIdeal.Facts]

/-! ## The window attention: slabs (n, h) of a 1024 × 8 × 64 × 32 array, 64 rows of width 32 -/

section Window

variable (x0 : (⟨S4x256x128x128, .f32⟩ : BufTy).Contents (Elt Ideal))

/-- The rows of slab (n, h) of the rearranged input. -/
abbrev wRows (n : Fin 1024) (h : Fin 8) : Fin 64 → Fin 32 → EReal :=
  fun a t => val_main_v2 (F := Ideal) x0 (ix4 n h a t)

/-- The scaled inner products of slab (n, h). -/
theorem w_scores (n : Fin 1024) (h : Fin 8) (q k : Fin 64) :
    val_main_v5 (F := Ideal) x0 (ix4 n h q k)
      = Cert.Attn.scores Cert.Attn.scW (wRows x0 n h) (wRows x0 n h) q k := by
  rw [val_main_v5_apply, val_main_v3_apply, val_main_v4_apply, val_main_cst_apply]
  have el : ∀ t : Fin 32, lidx_main_v3 (ix4 n h q k) t = ix4 n h q t := fun t =>
    funext fun a => Fin.ext (by match a with | ⟨0, _⟩ => rfl | ⟨1, _⟩ => rfl | ⟨2, _⟩ => rfl | ⟨3, _⟩ => rfl)
  have er : ∀ t : Fin 32, ridx_main_v3 (ix4 n h q k) t = ix4 n h k t := fun t =>
    funext fun a => Fin.ext (by match a with | ⟨0, _⟩ => rfl | ⟨1, _⟩ => rfl | ⟨2, _⟩ => rfl | ⟨3, _⟩ => rfl)
  simp only [el, er]
  rfl

/-- The max-reduction over the last axis, read at (n, h, q): the fold of `max` over the row, started at the floor. -/
theorem w_fold (n : Fin 1024) (h : Fin 8) (q : Fin 64) :
    val_main_v6 (F := Ideal) x0 (ix3 n h q)
      = (Finset.univ : Finset (Fin 64)).fold max Cert.Attn.floor
          (fun k => val_main_v5 (F := Ideal) x0 (ix4 n h q k)) := by
  unfold val_main_v6
  generalize val_main_v5 (F := Ideal) x0 = y0
  have hr : S1024x8x64x64.Reduces [3] S1024x8x64 := by decide
  refine (Host.reduce_eq_fold_single _ _ _ _ hr _ _).trans ?_
  have e : y0 ∘ hr.lift (ix3 n h q) = fun k : Fin 64 => y0 (ix4 n h q k) := funext fun k =>
    congrArg y0 (funext fun a => Fin.ext (by match a with | ⟨0, _⟩ => rfl | ⟨1, _⟩ => rfl | ⟨2, _⟩ => rfl | ⟨3, _⟩ => rfl))
  rw [e]
  rfl

/-- The row maximum of slab (n, h), never below the floor. -/
theorem w_rowMax (n : Fin 1024) (h : Fin 8) (q : Fin 64) :
    val_main_v8 (F := Ideal) x0 (ix3 n h q)
      = Cert.Attn.rowMax Cert.Attn.floor (Cert.Attn.scores Cert.Attn.scW (wRows x0 n h) (wRows x0 n h)) q := by
  rw [val_main_v8_apply, val_main_v7_apply, val_main_cst_1_apply, w_fold]
  have e : (fun k : Fin 64 => val_main_v5 (F := Ideal) x0 (ix4 n h q k))
      = Cert.Attn.scores Cert.Attn.scW (wRows x0 n h) (wRows x0 n h) q := funext fun k => w_scores x0 n h q k
  rw [e]
  rfl

/-- The unnormalised softmax weight of slab (n, h). -/
theorem w_weight (n : Fin 1024) (h : Fin 8) (q k : Fin 64) :
    val_main_v12 (F := Ideal) x0 (ix4 n h q k)
      = Cert.Attn.weight Cert.Attn.floor (Cert.Attn.scores Cert.Attn.scW (wRows x0 n h) (wRows x0 n h)) q k := by
  rw [val_main_v12_apply, val_main_v11_apply, val_main_v10_apply, val_main_v9_apply]
  have ei : idx_main_v9 (idx_main_v10 (ix4 n h q k)) = ix3 n h q :=
    funext fun a => Fin.ext (by match a with | ⟨0, _⟩ => rfl | ⟨1, _⟩ => rfl | ⟨2, _⟩ => rfl)
  rw [ei, w_rowMax, w_scores]
  rfl

/-- The row sum of the weights of slab (n, h). -/
theorem w_denom (n : Fin 1024) (h : Fin 8) (q : Fin 64) :
    val_main_v13 (F := Ideal) x0 (ix3 n h q)
      = ∑ k' : Fin 64, Cert.Attn.weight Cert.Attn.floor
          (Cert.Attn.scores Cert.Attn.scW (wRows x0 n h) (wRows x0 n h)) q k' := by
  rw [val_main_v13_apply, val_main_cst_2_apply, Ideal.ofBits_def, Ideal.ofBits_zero_f32, zero_add]
  refine Finset.sum_congr rfl fun k' _ => ?_
  have ei : idx_main_v13 (ix3 n h q) k' = ix4 n h q k' :=
    funext fun a => Fin.ext (by match a with | ⟨0, _⟩ => rfl | ⟨1, _⟩ => rfl | ⟨2, _⟩ => rfl | ⟨3, _⟩ => rfl)
  rw [ei, w_weight]

/-- The normalised softmax weight of slab (n, h). -/
theorem w_prob (n : Fin 1024) (h : Fin 8) (q k : Fin 64) :
    val_main_v16 (F := Ideal) x0 (ix4 n h q k)
      = Cert.Attn.prob Cert.Attn.floor (Cert.Attn.scores Cert.Attn.scW (wRows x0 n h) (wRows x0 n h)) q k := by
  rw [val_main_v16_apply, val_main_v15_apply, val_main_v14_apply]
  have ei : idx_main_v14 (idx_main_v15 (ix4 n h q k)) = ix3 n h q :=
    funext fun a => Fin.ext (by match a with | ⟨0, _⟩ => rfl | ⟨1, _⟩ => rfl | ⟨2, _⟩ => rfl)
  rw [ei, w_denom, w_weight]
  rfl

end Window

/-- The reference's window attention is the softmax attention of every slab of the rearranged input with itself. -/
theorem ref_window (x0 : (⟨S4x256x128x128, .f32⟩ : BufTy).Contents (Elt Ideal)) :
    val_main_v17 (F := Ideal) x0
      = Cert.Attn.slabs4 Cert.Attn.scW Cert.Attn.floor (val_main_v2 (F := Ideal) x0) (val_main_v2 (F := Ideal) x0) (val_main_v2 (F := Ideal) x0) := by
  funext i
  obtain ⟨n, h, q, j, rfl⟩ : ∃ (n : Fin 1024) (h : Fin 8) (q : Fin 64) (j : Fin 32), i = ix4 n h q j :=
    ⟨i 0, i 1, i 2, i 3, eq_ix4 i⟩
  rw [val_main_v17_apply, Cert.Attn.slabs4_apply]
  unfold Cert.Attn.attn
  refine Finset.sum_congr rfl fun k _ => ?_
  have el : lidx_main_v17 (ix4 n h q j) k = ix4 n h q k :=
    funext fun a => Fin.ext (by match a with | ⟨0, _⟩ => rfl | ⟨1, _⟩ => rfl | ⟨2, _⟩ => rfl | ⟨3, _⟩ => rfl)
  have er : ridx_main_v17 (ix4 n h q j) k = ix4 n h k j :=
    funext fun a => Fin.ext (by match a with | ⟨0, _⟩ => rfl | ⟨1, _⟩ => rfl | ⟨2, _⟩ => rfl | ⟨3, _⟩ => rfl)
  rw [el, er, w_prob]

/-! ## The channel attention: slabs (n, g) of 4 × 128 × 256 × 128 arrays, 256 rows of width 128 -/

section Channel

variable (x0 x1 : (⟨S4x256x128x128, .f32⟩ : BufTy).Contents (Elt Ideal))

/-- The query rows of slab (n, g). -/
abbrev cQ (n : Fin 4) (g : Fin 128) : Fin 256 → Fin 128 → EReal :=
  fun a t => val_main_v21 (F := Ideal) x0 (ix4 n g a t)

/-- The key rows of slab (n, g). -/
abbrev cK (n : Fin 4) (g : Fin 128) : Fin 256 → Fin 128 → EReal :=
  fun a t => val_main_v22 (F := Ideal) x1 (ix4 n g a t)

/-- The scaled inner products of slab (n, g). -/
theorem c_scores (n : Fin 4) (g : Fin 128) (q k : Fin 256) :
    val_main_v26 (F := Ideal) x0 x1 (ix4 n g q k)
      = Cert.Attn.scores Cert.Attn.scC (cQ x0 n g) (cK x1 n g) q k := by
  rw [val_main_v26_apply, val_main_v24_apply, val_main_v25_apply, val_main_cst_3_apply]
  have el : ∀ t : Fin 128, lidx_main_v24 (ix4 n g q k) t = ix4 n g q t := fun t =>
    funext fun a => Fin.ext (by match a with | ⟨0, _⟩ => rfl | ⟨1, _⟩ => rfl | ⟨2, _⟩ => rfl | ⟨3, _⟩ => rfl)
  have er : ∀ t : Fin 128, ridx_main_v24 (ix4 n g q k) t = ix4 n g k t := fun t =>
    funext fun a => Fin.ext (by match a with | ⟨0, _⟩ => rfl | ⟨1, _⟩ => rfl | ⟨2, _⟩ => rfl | ⟨3, _⟩ => rfl)
  simp only [el, er]
  rfl

/-- The max-reduction over the last axis, read at (n, g, q): the fold of `max` over the row, started at the floor. -/
theorem c_fold (n : Fin 4) (g : Fin 128) (q : Fin 256) :
    val_main_v27 (F := Ideal) x0 x1 (ix3 n g q)
      = (Finset.univ : Finset (Fin 256)).fold max Cert.Attn.floor
          (fun k => val_main_v26 (F := Ideal) x0 x1 (ix4 n g q k)) := by
  unfold val_main_v27
  generalize val_main_v26 (F := Ideal) x0 x1 = y0
  have hr : S4x128x256x256.Reduces [3] S4x128x256 := by decide
  refine (Host.reduce_eq_fold_single _ _ _ _ hr _ _).trans ?_
  have e : y0 ∘ hr.lift (ix3 n g q) = fun k : Fin 256 => y0 (ix4 n g q k) := funext fun k =>
    congrArg y0 (funext fun a => Fin.ext (by match a with | ⟨0, _⟩ => rfl | ⟨1, _⟩ => rfl | ⟨2, _⟩ => rfl | ⟨3, _⟩ => rfl))
  rw [e]
  rfl

/-- The row maximum of slab (n, g), never below the floor. -/
theorem c_rowMax (n : Fin 4) (g : Fin 128) (q : Fin 256) :
    val_main_v29 (F := Ideal) x0 x1 (ix3 n g q)
      = Cert.Attn.rowMax Cert.Attn.floor (Cert.Attn.scores Cert.Attn.scC (cQ x0 n g) (cK x1 n g)) q := by
  rw [val_main_v29_apply, val_main_v28_apply, val_main_cst_5_apply, c_fold]
  have e : (fun k : Fin 256 => val_main_v26 (F := Ideal) x0 x1 (ix4 n g q k))
      = Cert.Attn.scores Cert.Attn.scC (cQ x0 n g) (cK x1 n g) q := funext fun k => c_scores x0 x1 n g q k
  rw [e]
  rfl

/-- The unnormalised softmax weight of slab (n, g). -/
theorem c_weight (n : Fin 4) (g : Fin 128) (q k : Fin 256) :
    val_main_v33 (F := Ideal) x0 x1 (ix4 n g q k)
      = Cert.Attn.weight Cert.Attn.floor (Cert.Attn.scores Cert.Attn.scC (cQ x0 n g) (cK x1 n g)) q k := by
  rw [val_main_v33_apply, val_main_v32_apply, val_main_v31_apply, val_main_v30_apply]
  have ei : idx_main_v30 (idx_main_v31 (ix4 n g q k)) = ix3 n g q :=
    funext fun a => Fin.ext (by match a with | ⟨0, _⟩ => rfl | ⟨1, _⟩ => rfl | ⟨2, _⟩ => rfl)
  rw [ei, c_rowMax, c_scores]
  rfl

/-- The row sum of the weights of slab (n, g). -/
theorem c_denom (n : Fin 4) (g : Fin 128) (q : Fin 256) :
    val_main_v34 (F := Ideal) x0 x1 (ix3 n g q)
      = ∑ k' : Fin 256, Cert.Attn.weight Cert.Attn.floor
          (Cert.Attn.scores Cert.Attn.scC (cQ x0 n g) (cK x1 n g)) q k' := by
  rw [val_main_v34_apply, val_main_cst_6_apply, Ideal.ofBits_def, Ideal.ofBits_zero_f32, zero_add]
  refine Finset.sum_congr rfl fun k' _ => ?_
  have ei : idx_main_v34 (ix3 n g q) k' = ix4 n g q k' :=
    funext fun a => Fin.ext (by match a with | ⟨0, _⟩ => rfl | ⟨1, _⟩ => rfl | ⟨2, _⟩ => rfl | ⟨3, _⟩ => rfl)
  rw [ei, c_weight]

/-- The normalised softmax weight of slab (n, g). -/
theorem c_prob (n : Fin 4) (g : Fin 128) (q k : Fin 256) :
    val_main_v37 (F := Ideal) x0 x1 (ix4 n g q k)
      = Cert.Attn.prob Cert.Attn.floor (Cert.Attn.scores Cert.Attn.scC (cQ x0 n g) (cK x1 n g)) q k := by
  rw [val_main_v37_apply, val_main_v36_apply, val_main_v35_apply]
  have ei : idx_main_v35 (idx_main_v36 (ix4 n g q k)) = ix3 n g q :=
    funext fun a => Fin.ext (by match a with | ⟨0, _⟩ => rfl | ⟨1, _⟩ => rfl | ⟨2, _⟩ => rfl)
  rw [ei, c_denom, c_weight]
  rfl

end Channel

/-- The reference's channel attention is the softmax attention of every slab: queries from the first input, keys from
    the second, values from the fourth, each with its channel axis moved inside the group axis. -/
theorem ref_channel (x0 x1 x3 : (⟨S4x256x128x128, .f32⟩ : BufTy).Contents (Elt Ideal)) :
    val_main_v38 (F := Ideal) x0 x1 x3
      = Cert.Attn.slabs4 Cert.Attn.scC Cert.Attn.floor (val_main_v21 (F := Ideal) x0) (val_main_v22 (F := Ideal) x1) (val_main_v23 (F := Ideal) x3) := by
  funext i
  obtain ⟨n, g, q, j, rfl⟩ : ∃ (n : Fin 4) (g : Fin 128) (q : Fin 256) (j : Fin 128), i = ix4 n g q j :=
    ⟨i 0, i 1, i 2, i 3, eq_ix4 i⟩
  rw [val_main_v38_apply, Cert.Attn.slabs4_apply]
  unfold Cert.Attn.attn
  refine Finset.sum_congr rfl fun k _ => ?_
  have el : lidx_main_v38 (ix4 n g q j) k = ix4 n g q k :=
    funext fun a => Fin.ext (by match a with | ⟨0, _⟩ => rfl | ⟨1, _⟩ => rfl | ⟨2, _⟩ => rfl | ⟨3, _⟩ => rfl)
  have er : ridx_main_v38 (ix4 n g q j) k = ix4 n g k j :=
    funext fun a => Fin.ext (by match a with | ⟨0, _⟩ => rfl | ⟨1, _⟩ => rfl | ⟨2, _⟩ => rfl | ⟨3, _⟩ => rfl)
  rw [el, er, c_prob]

end Cert.RefAttn

end
-- ==== Proof.Bridge.lean ====
/-
  The bridge: the kernel program's result buffer holds the reference's function of the same arguments.

  Both programs cut the first argument into the same windows by the same reshapes and transposes, and put the window
  attention's result back by the same operations; both re-lay the channel operands by the same transpose. The kernel
  program merges the two slab axes into one before each launch and splits them after it; the reference keeps them
  apart. Slab by slab both take the same softmax attention, so the two results are the same array.
-/
import proofs.«128985_j42305427866177_2_alg».proof.Proof.Attn
import proofs.«128985_j42305427866177_2_alg».proof.Proof.Merge
import proofs.«128985_j42305427866177_2_alg».proof.Proof.KArr
import proofs.«128985_j42305427866177_2_alg».proof.Proof.KRun
import proofs.«128985_j42305427866177_2_alg».proof.Proof.RefRead

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)

/-- The kernel program's last buffer after the run is the reference's result function of the first, second and
    fourth argument arrays. -/
theorem kernel_value (c : Dev Cert.KernelIdeal.nD) :
    Cert.KernelIdeal.Gen.W5 m ρ c (Proc.devRef .tc Cert.KernelIdeal.main_v18)
      = Cert.ReferenceIdeal.Read.val_main_v40 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg3)) := by
  rw [Cert.KernelIdeal.Run.result_eq, Cert.KernelIdeal.Arr.arr0, Cert.KernelIdeal.Arr.arr1,
    Cert.KernelIdeal.Run.entry_window, Cert.KernelIdeal.Run.entry_query, Cert.KernelIdeal.Run.entry_key,
    Cert.KernelIdeal.Run.entry_value, Cert.Attn.merge_window, Cert.Attn.merge_channel]
  unfold Cert.ReferenceIdeal.Read.val_main_v40 Cert.ReferenceIdeal.Read.val_main_v39 Cert.ReferenceIdeal.Read.val_main_v20
    Cert.ReferenceIdeal.Read.val_main_v19 Cert.ReferenceIdeal.Read.val_main_v18
  rw [Cert.RefAttn.ref_window, Cert.RefAttn.ref_channel]
  unfold Cert.ReferenceIdeal.Read.val_main_v2 Cert.ReferenceIdeal.Read.val_main_v1 Cert.ReferenceIdeal.Read.val_main_v0
    Cert.ReferenceIdeal.Read.val_main_v21 Cert.ReferenceIdeal.Read.val_main_v22 Cert.ReferenceIdeal.Read.val_main_v23
  rfl

end Cert.Bridge

end
-- ==== Proof.lean ====
/-
  The certificate of the window-and-channel attention kernel against its jnp reference.

  The kernel program computes two softmax attentions in two launches — one over 8×8 spatial windows per head of the
  first argument with itself, one over the channels of each spatial group of the first argument against the second and
  fourth — and adds them; the reference computes the same two with batched matrix products and a row softmax on the
  host. Over the extended reals both take, slab by slab, the attention of Attn.lean; the two programs number the
  slabs differently (one merged axis against two), which Merge.lean shows is the same array. No law of arithmetic
  beyond re-indexing finite sums and maxima is used, so the finiteness of the inputs is never opened.

  The three frames are the generated ones (the reference's is its generated run with the result dropped); the
  idealization rewrote nothing, so its conjunct is trivial; the value conjunct pairs the kernel program's run, its
  result named and read by Bridge.lean, with the reference's generated run.
-/
import proofs.«128985_j42305427866177_2_alg».proof.Defs
import proofs.«128985_j42305427866177_2_alg».proof.Proof.Gen.Kernel
import proofs.«128985_j42305427866177_2_alg».proof.Proof.Gen.Kernel.Skeleton
import proofs.«128985_j42305427866177_2_alg».proof.Proof.Gen.Kernel.Launch
import proofs.«128985_j42305427866177_2_alg».proof.Proof.Gen.Kernel.Points
import proofs.«128985_j42305427866177_2_alg».proof.Proof.Gen.Kernel.Frame
import proofs.«128985_j42305427866177_2_alg».proof.Proof.Gen.KernelIdeal
import proofs.«128985_j42305427866177_2_alg».proof.Proof.Gen.KernelIdeal.Skeleton
import proofs.«128985_j42305427866177_2_alg».proof.Proof.Gen.KernelIdeal.Launch
import proofs.«128985_j42305427866177_2_alg».proof.Proof.Gen.KernelIdeal.Points
import proofs.«128985_j42305427866177_2_alg».proof.Proof.Gen.KernelIdeal.Frame
import proofs.«128985_j42305427866177_2_alg».proof.Proof.Gen.ReferenceIdeal
import proofs.«128985_j42305427866177_2_alg».proof.Proof.Gen.Pre_finite_inputs
import proofs.«128985_j42305427866177_2_alg».proof.Proof.Gen.ReferenceIdeal.Run
import proofs.«128985_j42305427866177_2_alg».proof.Proof.Gen.ReferenceIdeal.Read
import proofs.«128985_j42305427866177_2_alg».proof.Proof.KRun
import proofs.«128985_j42305427866177_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result function of the (agreeing) arguments in their result buffers. -/
theorem algebraic : Cert.algebraic_KernelIdeal_ReferenceIdeal := by
  intro m ρ m' ρ' _ hagree
  refine ⟨fun c => Cert.ReferenceIdeal.Read.val_main_v40 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.kernel_value m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
